-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S64x64 : Shape := ⟨2, ![64, 64]⟩
abbrev S32x64 : Shape := ⟨2, ![32, 64]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_arg12 : FVec F S32x64 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x64 .f32 := Host.absf main_arg12
  let main_cst_20 : FVec F S_ .f32 := constant S_ .f32 0x7F800000#32
  let main_v55 : FVec F S32x64 .f32 := broadcastInDim S32x64 ![] bcast_S_S32x64 main_cst_20
  let main_v56 : IVec S32x64 1 := cmpf .olt main_v54 main_v55
  let main_c_21 : IVec S_ 1 := constantI S_ 1 1#1
  let main_v57 : IVec S_ 1 := (fun x v => Host.reduce IntOp.andi x v reducesTo_S32x64_S_d0_1 h_S_) main_v56 main_c_21
  let main_v58 : IVec S_ 1 := andi main_v53 main_v57
  main_v58

def fn_part2 {F : FTy → Type} [FloatOps F] (main_arg8 : FVec F S64 .f32) (main_arg9 : FVec F S64x64 .f32) (main_arg10 : FVec F S32x64 .f32) (main_arg11 : FVec F S32 .f32) (main_arg12 : FVec F S32x64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S32x64 .f32 := Host.absf main_arg10
  let main_cst_16 : FVec F S_ .f32 := constant S_ .f32 0x7F800000#32
  let main_v45 : FVec F S32x64 .f32 := broadcastInDim S32x64 ![] bcast_S_S32x64 main_cst_16
  let main_v46 : IVec S32x64 1 := cmpf .olt main_v44 main_v45
  let main_c_17 : IVec S_ 1 := constantI S_ 1 1#1
  let main_v47 : IVec S_ 1 := (fun x v => Host.reduce IntOp.andi x v reducesTo_S32x64_S_d0_1 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_arg12 main_v48 main_v49 main_v50

def fn_part1 {F : FTy → Type} [FloatOps F] (main_arg5 : FVec F S64 .f32) (main_arg6 : FVec F S64x64 .f32) (main_arg7 : FVec F S64x64 .f32) (main_arg8 : FVec F S64 .f32) (main_arg9 : FVec F S64x64 .f32) (main_arg10 : FVec F S32x64 .f32) (main_arg11 : FVec F S32 .f32) (main_arg12 : FVec F S32x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x128 .f32) (main_arg1 : IVec S2x1600000 32) (main_arg2 : FVec F S64x128 .f32) (main_arg3 : FVec F S64 .f32) (main_arg4 : FVec F S64x64 .f32) (main_arg5 : FVec F S64 .f32) (main_arg6 : FVec F S64x64 .f32) (main_arg7 : FVec F S64x64 .f32) (main_arg8 : FVec F S64 .f32) (main_arg9 : FVec F S64x64 .f32) (main_arg10 : FVec F S32x64 .f32) (main_arg11 : FVec F S32 .f32) (main_arg12 : FVec F S32x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S64x64 : Shape := ⟨2, ![64, 64]⟩
abbrev S32x64 : Shape := ⟨2, ![32, 64]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x64 : Shape := ⟨2, ![1, 64]⟩
abbrev S100000x64 : Shape := ⟨2, ![100000, 64]⟩
abbrev S10000x128 : Shape := ⟨2, ![10000, 128]⟩
abbrev S10000x64 : Shape := ⟨2, ![10000, 64]⟩
abbrev S128x64 : Shape := ⟨2, ![128, 64]⟩
abbrev S1600000x64 : Shape := ⟨2, ![1600000, 64]⟩
abbrev S1x32 : Shape := ⟨2, ![1, 32]⟩
abbrev S100000x32 : Shape := ⟨2, ![100000, 32]⟩
abbrev S10000x32 : Shape := ⟨2, ![10000, 32]⟩
abbrev S64x32 : Shape := ⟨2, ![64, 32]⟩
abbrev S10000 : Shape := ⟨1, ![10000]⟩
abbrev S10000x1 : Shape := ⟨2, ![10000, 1]⟩

abbrev nBuf : Space → Nat
  | .hbm => 83
  | .vmem => 33
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S32x64, .f32⟩
  | .hbm, ⟨11, _⟩ => ⟨S32, .f32⟩
  | .hbm, ⟨12, _⟩ => ⟨S32x64, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S1x64, .f32⟩
  | .hbm, ⟨31, _⟩ => ⟨S100000x64, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x64, .f32⟩
  | .hbm, ⟨41, _⟩ => ⟨S_, .f32⟩
  | .hbm, ⟨42, _⟩ => ⟨S100000x64, .f32⟩
  | .hbm, ⟨43, _⟩ => ⟨S1600000x1, .i32⟩
  | .hbm, ⟨44, _⟩ => ⟨S100000x64, .f32⟩
  | .hbm, ⟨45, _⟩ => ⟨S100000x64, .f32⟩
  | .hbm, ⟨46, _⟩ => ⟨S100000x64, .f32⟩
  | .hbm, ⟨47, _⟩ => ⟨S1x64, .f32⟩
  | .hbm, ⟨48, _⟩ => ⟨S100000x64, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S_, .f32⟩
  | .hbm, ⟨59, _⟩ => ⟨S100000x64, .f32⟩
  | .hbm, ⟨60, _⟩ => ⟨S1600000x1, .i32⟩
  | .hbm, ⟨61, _⟩ => ⟨S100000x64, .f32⟩
  | .hbm, ⟨62, _⟩ => ⟨S100000x64, .f32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x64, .f32⟩
  | .hbm, ⟨75, _⟩ => ⟨S_, .f32⟩
  | .hbm, ⟨76, _⟩ => ⟨S100000x64, .f32⟩
  | .hbm, ⟨77, _⟩ => ⟨S1600000x1, .i32⟩
  | .hbm, ⟨78, _⟩ => ⟨S100000x64, .f32⟩
  | .hbm, ⟨79, _⟩ => ⟨S100000x64, .f32⟩
  | .hbm, ⟨80, _⟩ => ⟨S100000x64, .f32⟩
  | .hbm, ⟨81, _⟩ => ⟨S1x32, .f32⟩
  | .hbm, ⟨82, _⟩ => ⟨S100000x32, .f32⟩
  | .local _ .vmem, ⟨0, _⟩ => ⟨S10000x128, .f32⟩
  | .local _ .vmem, ⟨1, _⟩ => ⟨S10000x128, .f32⟩
  | .local _ .vmem, ⟨2, _⟩ => ⟨S64x128, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S64x64, .f32⟩
  | .local _ .vmem, ⟨11, _⟩ => ⟨S1x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S64x64, .f32⟩
  | .local _ .vmem, ⟨20, _⟩ => ⟨S1x64, .f32⟩
  | .local _ .vmem, ⟨21, _⟩ => ⟨S64x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S32x64, .f32⟩
  | .local _ .vmem, ⟨29, _⟩ => ⟨S1x32, .f32⟩
  | .local _ .vmem, ⟨30, _⟩ => ⟨S32x64, .f32⟩
  | .local _ .vmem, ⟨31, _⟩ => ⟨S10000x32, .f32⟩
  | .local _ .vmem, ⟨32, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_8 : Ref sig .tc := ⟨.hbm, 66, rfl⟩
abbrev main_v43 : Ref sig .tc := ⟨.hbm, 67, rfl⟩
abbrev main_v44 : Ref sig .tc := ⟨.hbm, 68, rfl⟩
abbrev main_c_9 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S32x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S32x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x32 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  shapeCasts_S32_S1x32 : S32.ShapeCasts S1x32
  inb_S32x64_S32x64_0_0 : ∀ a, (![0, 0] : Fin 2 → Nat) a + S32x64.size a ≤ S32x64.size a
  h_S32x64 : 0 < S32x64.numel
  transposes_S32x64_p1_0_S64x32 : S32x64.Transposes [1, 0] S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  reduces_S10000x32_S10000 : S10000x32.Reduces [1] S10000
  shapeCasts_S10000_S10000x1 : S10000.ShapeCasts S10000x1
  broadcasts_S10000x1_S10000x32 : S10000x1.Broadcasts S10000x32
  inb_S10000x32_S10000x32_0_0 : ∀ a, (![0, 0] : Fin 2 → Nat) a + S10000x32.size a ≤ S10000x32.size a
  h_S10000x32 : 0 < S10000x32.numel
  scatter_S100000_S1600000x1_S1600000_n_0_0_1_wf : ScatterDims.WF S100000 S1600000x1 S1600000 [] [0] [0] 1
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x64_S64x32_S10000x32_1_0_0_1_n_n_wf : DotDims.WF S10000x64 S64x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32x64.size a ≤ S32x64.size a
  hwx3_2 : ∀ i : grid3.Coords, EltTy.bits .f32 = 32 ∨ (Rect.block (s := S32x64) S32x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S32x64.size a ≤ S32x64.size a
  hwx3_4 : ∀ i : grid3.Coords, EltTy.bits .f32 = 32 ∨ (Rect.block (s := S32x64) S32x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x32.size a ≤ S100000x32.size a
  hwx3_5 : ∀ i : grid3.Coords, EltTy.bits .f32 = 32 ∨ (Rect.block (s := S100000x32) S10000x32.size (cc3_transform_5 i) (hinb3_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v40) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v54) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S32x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v55) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg12) S32x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v56) S10000x32.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S64x64 : Shape := ⟨2, ![64, 64]⟩
abbrev S32x64 : Shape := ⟨2, ![32, 64]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S128x64 : Shape := ⟨2, ![128, 64]⟩
abbrev S100000x64 : Shape := ⟨2, ![100000, 64]⟩
abbrev S1x64 : Shape := ⟨2, ![1, 64]⟩
abbrev S1600000x64 : Shape := ⟨2, ![1600000, 64]⟩
abbrev S64x32 : Shape := ⟨2, ![64, 32]⟩
abbrev S100000x32 : Shape := ⟨2, ![100000, 32]⟩
abbrev S1x32 : Shape := ⟨2, ![1, 32]⟩

abbrev nBuf : Space → Nat
  | .hbm => 120
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S32x64, .f32⟩
  | .hbm, ⟨11, _⟩ => ⟨S32, .f32⟩
  | .hbm, ⟨12, _⟩ => ⟨S32x64, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S128x64, .f32⟩
  | .hbm, ⟨31, _⟩ => ⟨S100000x64, .f32⟩
  | .hbm, ⟨32, _⟩ => ⟨S1x64, .f32⟩
  | .hbm, ⟨33, _⟩ => ⟨S100000x64, .f32⟩
  | .hbm, ⟨34, _⟩ => ⟨S100000x64, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x64, .f32⟩
  | .hbm, ⟨44, _⟩ => ⟨S_, .f32⟩
  | .hbm, ⟨45, _⟩ => ⟨S100000x64, .f32⟩
  | .hbm, ⟨46, _⟩ => ⟨S1600000x1, .i32⟩
  | .hbm, ⟨47, _⟩ => ⟨S100000x64, .f32⟩
  | .hbm, ⟨48, _⟩ => ⟨S100000x64, .f32⟩
  | .hbm, ⟨49, _⟩ => ⟨S100000x64, .f32⟩
  | .hbm, ⟨50, _⟩ => ⟨S64x64, .f32⟩
  | .hbm, ⟨51, _⟩ => ⟨S100000x64, .f32⟩
  | .hbm, ⟨52, _⟩ => ⟨S1x64, .f32⟩
  | .hbm, ⟨53, _⟩ => ⟨S100000x64, .f32⟩
  | .hbm, ⟨54, _⟩ => ⟨S100000x64, .f32⟩
  | .hbm, ⟨55, _⟩ => ⟨S64x64, .f32⟩
  | .hbm, ⟨56, _⟩ => ⟨S100000x64, .f32⟩
  | .hbm, ⟨57, _⟩ => ⟨S100000x64, .f32⟩
  | .hbm, ⟨58, _⟩ => ⟨S_, .f32⟩
  | .hbm, ⟨59, _⟩ => ⟨S100000x64, .f32⟩
  | .hbm, ⟨60, _⟩ => ⟨S100000x64, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x64, .f32⟩
  | .hbm, ⟨70, _⟩ => ⟨S_, .f32⟩
  | .hbm, ⟨71, _⟩ => ⟨S100000x64, .f32⟩
  | .hbm, ⟨72, _⟩ => ⟨S1600000x1, .i32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S64x64, .f32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S100000x64, .f32⟩
  | .hbm, ⟨81, _⟩ => ⟨S64x64, .f32⟩
  | .hbm, ⟨82, _⟩ => ⟨S100000x64, .f32⟩
  | .hbm, ⟨83, _⟩ => ⟨S100000x64, .f32⟩
  | .hbm, ⟨84, _⟩ => ⟨S_, .f32⟩
  | .hbm, ⟨85, _⟩ => ⟨S100000x64, .f32⟩
  | .hbm, ⟨86, _⟩ => ⟨S100000x64, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000x64, .f32⟩
  | .hbm, ⟨96, _⟩ => ⟨S_, .f32⟩
  | .hbm, ⟨97, _⟩ => ⟨S100000x64, .f32⟩
  | .hbm, ⟨98, _⟩ => ⟨S1600000x1, .i32⟩
  | .hbm, ⟨99, _⟩ => ⟨S100000x64, .f32⟩
  | .hbm, ⟨100, _⟩ => ⟨S100000x64, .f32⟩
  | .hbm, ⟨101, _⟩ => ⟨S100000x64, .f32⟩
  | .hbm, ⟨102, _⟩ => ⟨S64x32, .f32⟩
  | .hbm, ⟨103, _⟩ => ⟨S100000x32, .f32⟩
  | .hbm, ⟨104, _⟩ => ⟨S1x32, .f32⟩
  | .hbm, ⟨105, _⟩ => ⟨S100000x32, .f32⟩
  | .hbm, ⟨106, _⟩ => ⟨S100000x32, .f32⟩
  | .hbm, ⟨107, _⟩ => ⟨S64x32, .f32⟩
  | .hbm, ⟨108, _⟩ => ⟨S100000x32, .f32⟩
  | .hbm, ⟨109, _⟩ => ⟨S100000x32, .f32⟩
  | .hbm, ⟨110, _⟩ => ⟨S100000x32, .f32⟩
  | .hbm, ⟨111, _⟩ => ⟨S_, .f32⟩
  | .hbm, ⟨112, _⟩ => ⟨S100000, .f32⟩
  | .hbm, ⟨113, _⟩ => ⟨S100000x1, .f32⟩
  | .hbm, ⟨114, _⟩ => ⟨S100000x1, .f32⟩
  | .hbm, ⟨115, _⟩ => ⟨S_, .f32⟩
  | .hbm, ⟨116, _⟩ => ⟨S100000x1, .f32⟩
  | .hbm, ⟨117, _⟩ => ⟨S100000x1, .f32⟩
  | .hbm, ⟨118, _⟩ => ⟨S100000x32, .f32⟩
  | .hbm, ⟨119, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call0_cst : Ref sig .tc := ⟨.hbm, 58, rfl⟩
abbrev main_call0_v0 : Ref sig .tc := ⟨.hbm, 59, rfl⟩
abbrev main_v38 : Ref sig .tc := ⟨.hbm, 60, rfl⟩
abbrev main_c_5 : Ref sig .tc := ⟨.hbm, 61, rfl⟩
abbrev main_v39 : Ref sig .tc := ⟨.hbm, 62, rfl⟩
abbrev main_v40 : Ref sig .tc := ⟨.hbm, 63, rfl⟩
abbrev main_c_6 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_7 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_c_8 : Ref sig .tc := ⟨.hbm, 87, rfl⟩
abbrev main_v60 : Ref sig .tc := ⟨.hbm, 88, rfl⟩
abbrev main_v61 : Ref sig .tc := ⟨.hbm, 89, rfl⟩
abbrev main_c_9 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_10 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_call2_v0 : Ref sig .tc := ⟨.hbm, 110, rfl⟩
abbrev main_call2_cst : Ref sig .tc := ⟨.hbm, 111, rfl⟩
abbrev main_call2_v1 : Ref sig .tc := ⟨.hbm, 112, rfl⟩
abbrev main_call2_v2 : Ref sig .tc := ⟨.hbm, 113, rfl⟩
abbrev main_v80 : Ref sig .tc := ⟨.hbm, 114, rfl⟩
abbrev main_cst_11 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  transposes_S32x64_S64x32_1_0 : S32x64.Transposes [1, 0] S64x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S100000_d1 : S100000x32.ReducesTo [1] S100000
  h_S_ : 0 < S_.numel
  bcast_S_S100000x1 : S_.BroadcastsInDim S100000x1 (![] : Fin 0 → Fin S100000x1.rank)
  bcast_S100000x1_S100000x32_0_1 : S100000x1.BroadcastsInDim S100000x32 (![0, 1] : Fin 2 → Fin S100000x32.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.KernelRun.lean ====
/-
  The kernel program's run with its RESULT named: every weakly fair execution of @main terminates, nothing faulting,
  with the result buffer at what the last region's write-backs leave there (`Gen.W8` at the result's reference: the
  buffer contents folded through the four host stretches and the four regions) and the thirteen arguments as launched.
  The segments, their proof data and the boundary contents are the generated frame's; only the final read differs:
  besides the arguments it reads the result buffer off the last thread state.
-/
import proofs.«118156_j50757923504416_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read off the last boundary's contents. -/
theorem run_result : θ_run defs (onTc (τ := τ) (main (F := F))) ⟨m, fun _ => 0, ρ⟩ (fun r => ∀ c : Dev nD,
      r.2.mem ((c.tc : Thread nD τ).loc main_v56) = W8 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v56 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c)⟩)

end Cert.KernelIdeal.Hand

end
-- ==== Proof.Spec.lean ====
/-
  The network as ONE function of whole arrays, stage by stage.

  A node's features pass through: a linear projection (x · W_preᵀ + b), then three times "mean of the in-neighbours'
  features, two linear maps and a bias": for an edge list (src, dst), the mean aggregate of h at node v is the sum of
  h[src e] over the edges e with dst e = v, times 1 / max(deg v, 1); a layer is agg · Wlᵀ + b + h · Wrᵀ, followed by
  max(·, 0) on the first two layers and by the division of each row by max(‖row‖₂, ε) on the last.

  Every stage is stated over arrays of the full extents with the host's own operations, so that the reference's
  composed term is this function by unfolding, and each kernel region's array is one stage of it.
  The bias enters a stage as a [1, d] row: the two programs build that row from the [d] argument in two ways.
-/
import proofs.«118156_j50757923504416_2_alg».proof.Proof.Gen.ReferenceIdeal

noncomputable section

namespace Cert.Sage

open Cert.ReferenceIdeal Cert.ReferenceIdeal.Gen Idealize.ShloMosaic Idealize.ShloMosaic.TcCoe Idealize.SL.Sem

variable {F : FTy → Type} [FloatOps F]

/-- A float array of shape `s`. -/
abbrev TF (F : FTy → Type) (s : Shape) : Type := (⟨s, .f32⟩ : BufTy).Contents (Elt F)
/-- A 32-bit integer array of shape `s`. -/
abbrev TI (F : FTy → Type) (s : Shape) : Type := (⟨s, .i32⟩ : BufTy).Contents (Elt F)

/-! ## The edge list -/

/-- Row 0 of the edge list: each edge's source node, as stored. -/
def srcRaw (ei : TI F S2x1600000) : TI F S1600000 :=
  shapeCast _ (extractStridedSlice S1x1600000 ![0, 0] ei slices_S2x1600000_S1x1600000_0_0) shapeCasts_S1x1600000_S1600000

/-- Row 1 of the edge list: each edge's destination node. -/
def dstRaw (ei : TI F S2x1600000) : TI F S1600000 :=
  shapeCast _ (extractStridedSlice S1x1600000 ![1, 0] ei slices_S2x1600000_S1x1600000_1_0) shapeCasts_S1x1600000_S1600000

/-- Source nodes as gather start indices: a negative index counts from the end (n + 100000). -/
def gatherIdx (src : TI F S1600000) : TI F S1600000x1 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Destination nodes as scatter indices. -/
def scatterIdx (dst : TI F S1600000) : TI F S1600000x1 :=
  broadcastInDim S1600000x1 ![0] bcast_S1600000_S1600000x1_0 dst

/-- The edge list's destinations as scatter indices. -/
def dstIdx (ei : TI F S2x1600000) : TI F S1600000x1 := scatterIdx (dstRaw ei)

/-- 1 / max(in-degree, 1) per node, as a column: the in-degree is the scatter-sum of ones over the destinations. -/
def invDeg (ei : TI F S2x1600000) : TF F S100000x1 :=
  broadcastInDim S100000x1 ![0] bcast_S100000_S100000x1_0
    (Host.divf (broadcastInDim S100000 ![] bcast_S_S100000 (constant S_ .f32 0x3F800000#32))
      (maximumf
        (Host.scatterAdd scatter_S100000_S1600000x1_S1600000_n_0_0_1
          (broadcastInDim S100000 ![] bcast_S_S100000 (constant S_ .f32 0x00000000#32)) (dstIdx ei)
          (broadcastInDim S1600000 ![] bcast_S_S1600000 (constant S_ .f32 0x3F800000#32)))
        (broadcastInDim S100000 ![] bcast_S_S100000 (constant S_ .f32 0x3F800000#32))))

/-- The mean aggregate from its parts: gather the rows of `h` at the source nodes, scatter-sum them at the
    destination nodes, scale each node's row by its inverse degree. -/
def meanAggP (h : TF F S100000x64) (src dst : TI F S1600000) (inv : TF F S100000x1) : TF F S100000x64 :=
  mulf
    (Host.scatterAdd scatter_S100000x64_S1600000x1_S1600000x64_1_0_0_1
      (broadcastInDim S100000x64 ![] bcast_S_S100000x64 (constant S_ .f32 0x00000000#32)) (scatterIdx dst)
      (Host.gather gather_S100000x64_S1600000x1_S1600000x64_1_0_n_n_0_1_164 h (gatherIdx src)))
    (broadcastInDim S100000x64 ![0, 1] bcast_S100000x1_S100000x64_0_1 inv)

/-- The mean aggregate over an edge list. -/
def meanAgg (h : TF F S100000x64) (ei : TI F S2x1600000) : TF F S100000x64 :=
  meanAggP h (srcRaw ei) (dstRaw ei) (invDeg ei)

/-! ## The dense stages -/

/-- A [64] bias as a [1, 64] row. -/
def biasRow64 (b : TF F S64) : TF F S1x64 := broadcastInDim S1x64 ![1] bcast_S64_S1x64_1 b
/-- A [32] bias as a [1, 32] row. -/
def biasRow32 (b : TF F S32) : TF F S1x32 := broadcastInDim S1x32 ![1] bcast_S32_S1x32_1 b

/-- The input projection x · Wᵀ + b, the bias a row added to every node. -/
def proj (x : TF F S100000x128) (W : TF F S64x128) (b2 : TF F S1x64) : TF F S100000x64 :=
  addf (Host.dotGeneral dot_S100000x128_S128x64_S100000x64_1_0_0_1_n_n none x (transpose S128x64 [1, 0] W transposes_S64x128_S128x64_1_0))
    (broadcastInDim S100000x64 ![0, 1] bcast_S1x64_S100000x64_0_1 b2)

/-- A layer's linear part into 64 features: a · Wlᵀ + b + h · Wrᵀ. -/
def comb64 (a h : TF F S100000x64) (Wl : TF F S64x64) (b2 : TF F S1x64) (Wr : TF F S64x64) : TF F S100000x64 :=
  addf
    (addf (Host.dotGeneral dot_S100000x64_S64x64_S100000x64_1_0_0_1_n_n none a (transpose S64x64 [1, 0] Wl transposes_S64x64_S64x64_1_0))
      (broadcastInDim S100000x64 ![0, 1] bcast_S1x64_S100000x64_0_1 b2))
    (Host.dotGeneral dot_S100000x64_S64x64_S100000x64_1_0_0_1_n_n none h (transpose S64x64 [1, 0] Wr transposes_S64x64_S64x64_1_0))

/-- max(·, 0), entry by entry. -/
def relu64 (z : TF F S100000x64) : TF F S100000x64 :=
  maximumf z (broadcastInDim S100000x64 ![] bcast_S_S100000x64 (constant S_ .f32 0x00000000#32))

/-- The last layer's linear part into 32 features. -/
def comb32 (a h : TF F S100000x64) (Wl : TF F S32x64) (b2 : TF F S1x32) (Wr : TF F S32x64) : TF F S100000x32 :=
  addf
    (addf (Host.dotGeneral dot_S100000x64_S64x32_S100000x32_1_0_0_1_n_n none a (transpose S64x32 [1, 0] Wl transposes_S32x64_S64x32_1_0))
      (broadcastInDim S100000x32 ![0, 1] bcast_S1x32_S100000x32_0_1 b2))
    (Host.dotGeneral dot_S100000x64_S64x32_S100000x32_1_0_0_1_n_n none h (transpose S64x32 [1, 0] Wr transposes_S32x64_S64x32_1_0))

/-- Each row divided by max(√(Σ of its squares), ε), ε the float written 1e-12. -/
def unitRows (z : TF F S100000x32) : TF F S100000x32 :=
  Host.divf z
    (broadcastInDim S100000x32 ![0, 1] bcast_S100000x1_S100000x32_0_1
      (maximumf
        (Host.sqrt (broadcastInDim S100000x1 ![0] bcast_S100000_S100000x1_0
          (Host.reduceAdd (mulf z z) (constant S_ .f32 0x00000000#32) reducesTo_S100000x32_S100000_d1 h_S_)))
        (broadcastInDim S100000x1 ![] bcast_S_S100000x1 (constant S_ .f32 0x2B8CBCCC#32))))

/-- A hidden layer: the linear part, then max(·, 0). -/
def hidden (a h : TF F S100000x64) (Wl : TF F S64x64) (b2 : TF F S1x64) (Wr : TF F S64x64) : TF F S100000x64 :=
  relu64 (comb64 a h Wl b2 Wr)

/-- The output layer: the linear part, then every row scaled to unit length. -/
def outLayer (a h : TF F S100000x64) (Wl : TF F S32x64) (b2 : TF F S1x32) (Wr : TF F S32x64) : TF F S100000x32 :=
  unitRows (comb32 a h Wl b2 Wr)

/-- The whole network, the three biases given as rows. -/
def net (x : TF F S100000x128) (ei : TI F S2x1600000) (Wp : TF F S64x128) (bp : TF F S1x64)
    (Wl1 : TF F S64x64) (b1 : TF F S1x64) (Wr1 : TF F S64x64)
    (Wl2 : TF F S64x64) (b2 : TF F S1x64) (Wr2 : TF F S64x64)
    (Wl3 : TF F S32x64) (b3 : TF F S1x32) (Wr3 : TF F S32x64) : TF F S100000x32 :=
  outLayer (meanAgg (hidden (meanAgg (hidden (meanAgg (proj x Wp bp) ei) (proj x Wp bp) Wl1 b1 Wr1) ei)
      (hidden (meanAgg (proj x Wp bp) ei) (proj x Wp bp) Wl1 b1 Wr1) Wl2 b2 Wr2) ei)
    (hidden (meanAgg (hidden (meanAgg (proj x Wp bp) ei) (proj x Wp bp) Wl1 b1 Wr1) ei)
      (hidden (meanAgg (proj x Wp bp) ei) (proj x Wp bp) Wl1 b1 Wr1) Wl2 b2 Wr2) Wl3 b3 Wr3

end Cert.Sage

end
-- ==== Proof.HostStretches.lean ====
/-
  The host stretches between the regions, one buffer at a time, from ANY buffer contents `Wv`: each buffer a stretch
  writes and a later region reads is the corresponding stage function of the buffers the stretch reads (the edge
  list's rows, the inverse degrees, a bias reshaped to a row, the mean aggregate of a feature array), and each
  buffer a later segment still needs is left as it was.
-/
import proofs.«118156_j50757923504416_2_alg».proof.Proof.Gen.KernelIdeal.Launch
import proofs.«118156_j50757923504416_2_alg».proof.Proof.Spec
import Idealize.ShloMosaic.Lib.StableHlo.Run
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (Wv : Valuation τ sig (Elt Ideal))

/-! ## Stretch 0 -/

set_option maxHeartbeats 4000000 in
/-- What stretch 0 leaves in `main_v1`. -/
theorem h0_v1 : StableHlo.after (hostOps0 (F := Ideal)) Wv (Proc.devRef .tc main_v1)
    = Cert.Sage.srcRaw (F := Ideal) (Wv (Proc.devRef .tc main_arg1)) := by
  after_results_simp <;> rfl

set_option maxHeartbeats 4000000 in
/-- What stretch 0 leaves in `main_v3`. -/
theorem h0_v3 : StableHlo.after (hostOps0 (F := Ideal)) Wv (Proc.devRef .tc main_v3)
    = Cert.Sage.dstRaw (F := Ideal) (Wv (Proc.devRef .tc main_arg1)) := by
  after_results_simp <;> rfl

set_option maxHeartbeats 4000000 in
/-- What stretch 0 leaves in `main_v12`. -/
theorem h0_v12 : StableHlo.after (hostOps0 (F := Ideal)) Wv (Proc.devRef .tc main_v12)
    = Cert.Sage.invDeg (F := Ideal) (Wv (Proc.devRef .tc main_arg1)) := by
  after_results_simp <;> rfl

set_option maxHeartbeats 4000000 in
/-- What stretch 0 leaves in `main_v13`. -/
theorem h0_v13 : StableHlo.after (hostOps0 (F := Ideal)) Wv (Proc.devRef .tc main_v13)
    = shapeCast S1x64 (Wv (Proc.devRef .tc main_arg3)) shapeCasts_S64_S1x64 := by
  after_results_simp <;> rfl

set_option maxHeartbeats 4000000 in
/-- Stretch 0 does not write `main_arg0`. -/
theorem keep0_arg0 : StableHlo.after (hostOps0 (F := Ideal)) Wv (Proc.devRef .tc main_arg0) = Wv (Proc.devRef .tc main_arg0) := by
  after_results_simp <;> rfl

set_option maxHeartbeats 4000000 in
/-- Stretch 0 does not write `main_arg2`. -/
theorem keep0_arg2 : StableHlo.after (hostOps0 (F := Ideal)) Wv (Proc.devRef .tc main_arg2) = Wv (Proc.devRef .tc main_arg2) := by
  after_results_simp <;> rfl

set_option maxHeartbeats 4000000 in
/-- Stretch 0 does not write `main_arg4`. -/
theorem keep0_arg4 : StableHlo.after (hostOps0 (F := Ideal)) Wv (Proc.devRef .tc main_arg4) = Wv (Proc.devRef .tc main_arg4) := by
  after_results_simp <;> rfl

set_option maxHeartbeats 4000000 in
/-- Stretch 0 does not write `main_arg5`. -/
theorem keep0_arg5 : StableHlo.after (hostOps0 (F := Ideal)) Wv (Proc.devRef .tc main_arg5) = Wv (Proc.devRef .tc main_arg5) := by
  after_results_simp <;> rfl

set_option maxHeartbeats 4000000 in
/-- Stretch 0 does not write `main_arg6`. -/
theorem keep0_arg6 : StableHlo.after (hostOps0 (F := Ideal)) Wv (Proc.devRef .tc main_arg6) = Wv (Proc.devRef .tc main_arg6) := by
  after_results_simp <;> rfl

set_option maxHeartbeats 4000000 in
/-- Stretch 0 does not write `main_arg7`. -/
theorem keep0_arg7 : StableHlo.after (hostOps0 (F := Ideal)) Wv (Proc.devRef .tc main_arg7) = Wv (Proc.devRef .tc main_arg7) := by
  after_results_simp <;> rfl

set_option maxHeartbeats 4000000 in
/-- Stretch 0 does not write `main_arg8`. -/
theorem keep0_arg8 : StableHlo.after (hostOps0 (F := Ideal)) Wv (Proc.devRef .tc main_arg8) = Wv (Proc.devRef .tc main_arg8) := by
  after_results_simp <;> rfl

set_option maxHeartbeats 4000000 in
/-- Stretch 0 does not write `main_arg9`. -/
theorem keep0_arg9 : StableHlo.after (hostOps0 (F := Ideal)) Wv (Proc.devRef .tc main_arg9) = Wv (Proc.devRef .tc main_arg9) := by
  after_results_simp <;> rfl

set_option maxHeartbeats 4000000 in
/-- Stretch 0 does not write `main_arg10`. -/
theorem keep0_arg10 : StableHlo.after (hostOps0 (F := Ideal)) Wv (Proc.devRef .tc main_arg10) = Wv (Proc.devRef .tc main_arg10) := by
  after_results_simp <;> rfl

set_option maxHeartbeats 4000000 in
/-- Stretch 0 does not write `main_arg11`. -/
theorem keep0_arg11 : StableHlo.after (hostOps0 (F := Ideal)) Wv (Proc.devRef .tc main_arg11) = Wv (Proc.devRef .tc main_arg11) := by
  after_results_simp <;> rfl

set_option maxHeartbeats 4000000 in
/-- Stretch 0 does not write `main_arg12`. -/
theorem keep0_arg12 : StableHlo.after (hostOps0 (F := Ideal)) Wv (Proc.devRef .tc main_arg12) = Wv (Proc.devRef .tc main_arg12) := by
  after_results_simp <;> rfl

/-! ## Stretch 1 -/

set_option maxHeartbeats 4000000 in
/-- What stretch 1 leaves in `main_v26`. -/
theorem h1_v26 : StableHlo.after (hostOps1 (F := Ideal)) Wv (Proc.devRef .tc main_v26)
    = Cert.Sage.meanAggP (F := Ideal) (Wv (Proc.devRef .tc main_v14)) (Wv (Proc.devRef .tc main_v1)) (Wv (Proc.devRef .tc main_v3)) (Wv (Proc.devRef .tc main_v12)) := by
  after_results_simp <;> rfl

set_option maxHeartbeats 4000000 in
/-- What stretch 1 leaves in `main_v27`. -/
theorem h1_v27 : StableHlo.after (hostOps1 (F := Ideal)) Wv (Proc.devRef .tc main_v27)
    = shapeCast S1x64 (Wv (Proc.devRef .tc main_arg5)) shapeCasts_S64_S1x64 := by
  after_results_simp <;> rfl

set_option maxHeartbeats 4000000 in
/-- Stretch 1 does not write `main_v14`. -/
theorem keep1_v14 : StableHlo.after (hostOps1 (F := Ideal)) Wv (Proc.devRef .tc main_v14) = Wv (Proc.devRef .tc main_v14) := by
  after_results_simp <;> rfl

set_option maxHeartbeats 4000000 in
/-- Stretch 1 does not write `main_arg4`. -/
theorem keep1_arg4 : StableHlo.after (hostOps1 (F := Ideal)) Wv (Proc.devRef .tc main_arg4) = Wv (Proc.devRef .tc main_arg4) := by
  after_results_simp <;> rfl

set_option maxHeartbeats 4000000 in
/-- Stretch 1 does not write `main_arg6`. -/
theorem keep1_arg6 : StableHlo.after (hostOps1 (F := Ideal)) Wv (Proc.devRef .tc main_arg6) = Wv (Proc.devRef .tc main_arg6) := by
  after_results_simp <;> rfl

set_option maxHeartbeats 4000000 in
/-- Stretch 1 does not write `main_v1`. -/
theorem keep1_v1 : StableHlo.after (hostOps1 (F := Ideal)) Wv (Proc.devRef .tc main_v1) = Wv (Proc.devRef .tc main_v1) := by
  after_results_simp <;> rfl

set_option maxHeartbeats 4000000 in
/-- Stretch 1 does not write `main_v3`. -/
theorem keep1_v3 : StableHlo.after (hostOps1 (F := Ideal)) Wv (Proc.devRef .tc main_v3) = Wv (Proc.devRef .tc main_v3) := by
  after_results_simp <;> rfl

set_option maxHeartbeats 4000000 in
/-- Stretch 1 does not write `main_v12`. -/
theorem keep1_v12 : StableHlo.after (hostOps1 (F := Ideal)) Wv (Proc.devRef .tc main_v12) = Wv (Proc.devRef .tc main_v12) := by
  after_results_simp <;> rfl

set_option maxHeartbeats 4000000 in
/-- Stretch 1 does not write `main_arg7`. -/
theorem keep1_arg7 : StableHlo.after (hostOps1 (F := Ideal)) Wv (Proc.devRef .tc main_arg7) = Wv (Proc.devRef .tc main_arg7) := by
  after_results_simp <;> rfl

set_option maxHeartbeats 4000000 in
/-- Stretch 1 does not write `main_arg8`. -/
theorem keep1_arg8 : StableHlo.after (hostOps1 (F := Ideal)) Wv (Proc.devRef .tc main_arg8) = Wv (Proc.devRef .tc main_arg8) := by
  after_results_simp <;> rfl

set_option maxHeartbeats 4000000 in
/-- Stretch 1 does not write `main_arg9`. -/
theorem keep1_arg9 : StableHlo.after (hostOps1 (F := Ideal)) Wv (Proc.devRef .tc main_arg9) = Wv (Proc.devRef .tc main_arg9) := by
  after_results_simp <;> rfl

set_option maxHeartbeats 4000000 in
/-- Stretch 1 does not write `main_arg10`. -/
theorem keep1_arg10 : StableHlo.after (hostOps1 (F := Ideal)) Wv (Proc.devRef .tc main_arg10) = Wv (Proc.devRef .tc main_arg10) := by
  after_results_simp <;> rfl

set_option maxHeartbeats 4000000 in
/-- Stretch 1 does not write `main_arg11`. -/
theorem keep1_arg11 : StableHlo.after (hostOps1 (F := Ideal)) Wv (Proc.devRef .tc main_arg11) = Wv (Proc.devRef .tc main_arg11) := by
  after_results_simp <;> rfl

set_option maxHeartbeats 4000000 in
/-- Stretch 1 does not write `main_arg12`. -/
theorem keep1_arg12 : StableHlo.after (hostOps1 (F := Ideal)) Wv (Proc.devRef .tc main_arg12) = Wv (Proc.devRef .tc main_arg12) := by
  after_results_simp <;> rfl

/-! ## Stretch 2 -/

set_option maxHeartbeats 4000000 in
/-- What stretch 2 leaves in `main_v40`. -/
theorem h2_v40 : StableHlo.after (hostOps2 (F := Ideal)) Wv (Proc.devRef .tc main_v40)
    = Cert.Sage.meanAggP (F := Ideal) (Wv (Proc.devRef .tc main_v28)) (Wv (Proc.devRef .tc main_v1)) (Wv (Proc.devRef .tc main_v3)) (Wv (Proc.devRef .tc main_v12)) := by
  after_results_simp <;> rfl

set_option maxHeartbeats 4000000 in
/-- What stretch 2 leaves in `main_v41`. -/
theorem h2_v41 : StableHlo.after (hostOps2 (F := Ideal)) Wv (Proc.devRef .tc main_v41)
    = shapeCast S1x64 (Wv (Proc.devRef .tc main_arg8)) shapeCasts_S64_S1x64 := by
  after_results_simp <;> rfl

set_option maxHeartbeats 4000000 in
/-- Stretch 2 does not write `main_v28`. -/
theorem keep2_v28 : StableHlo.after (hostOps2 (F := Ideal)) Wv (Proc.devRef .tc main_v28) = Wv (Proc.devRef .tc main_v28) := by
  after_results_simp <;> rfl

set_option maxHeartbeats 4000000 in
/-- Stretch 2 does not write `main_arg7`. -/
theorem keep2_arg7 : StableHlo.after (hostOps2 (F := Ideal)) Wv (Proc.devRef .tc main_arg7) = Wv (Proc.devRef .tc main_arg7) := by
  after_results_simp <;> rfl

set_option maxHeartbeats 4000000 in
/-- Stretch 2 does not write `main_arg9`. -/
theorem keep2_arg9 : StableHlo.after (hostOps2 (F := Ideal)) Wv (Proc.devRef .tc main_arg9) = Wv (Proc.devRef .tc main_arg9) := by
  after_results_simp <;> rfl

set_option maxHeartbeats 4000000 in
/-- Stretch 2 does not write `main_v1`. -/
theorem keep2_v1 : StableHlo.after (hostOps2 (F := Ideal)) Wv (Proc.devRef .tc main_v1) = Wv (Proc.devRef .tc main_v1) := by
  after_results_simp <;> rfl

set_option maxHeartbeats 4000000 in
/-- Stretch 2 does not write `main_v3`. -/
theorem keep2_v3 : StableHlo.after (hostOps2 (F := Ideal)) Wv (Proc.devRef .tc main_v3) = Wv (Proc.devRef .tc main_v3) := by
  after_results_simp <;> rfl

set_option maxHeartbeats 4000000 in
/-- Stretch 2 does not write `main_v12`. -/
theorem keep2_v12 : StableHlo.after (hostOps2 (F := Ideal)) Wv (Proc.devRef .tc main_v12) = Wv (Proc.devRef .tc main_v12) := by
  after_results_simp <;> rfl

set_option maxHeartbeats 4000000 in
/-- Stretch 2 does not write `main_arg10`. -/
theorem keep2_arg10 : StableHlo.after (hostOps2 (F := Ideal)) Wv (Proc.devRef .tc main_arg10) = Wv (Proc.devRef .tc main_arg10) := by
  after_results_simp <;> rfl

set_option maxHeartbeats 4000000 in
/-- Stretch 2 does not write `main_arg11`. -/
theorem keep2_arg11 : StableHlo.after (hostOps2 (F := Ideal)) Wv (Proc.devRef .tc main_arg11) = Wv (Proc.devRef .tc main_arg11) := by
  after_results_simp <;> rfl

set_option maxHeartbeats 4000000 in
/-- Stretch 2 does not write `main_arg12`. -/
theorem keep2_arg12 : StableHlo.after (hostOps2 (F := Ideal)) Wv (Proc.devRef .tc main_arg12) = Wv (Proc.devRef .tc main_arg12) := by
  after_results_simp <;> rfl

/-! ## Stretch 3 -/

set_option maxHeartbeats 4000000 in
/-- What stretch 3 leaves in `main_v54`. -/
theorem h3_v54 : StableHlo.after (hostOps3 (F := Ideal)) Wv (Proc.devRef .tc main_v54)
    = Cert.Sage.meanAggP (F := Ideal) (Wv (Proc.devRef .tc main_v42)) (Wv (Proc.devRef .tc main_v1)) (Wv (Proc.devRef .tc main_v3)) (Wv (Proc.devRef .tc main_v12)) := by
  after_results_simp <;> rfl

set_option maxHeartbeats 4000000 in
/-- What stretch 3 leaves in `main_v55`. -/
theorem h3_v55 : StableHlo.after (hostOps3 (F := Ideal)) Wv (Proc.devRef .tc main_v55)
    = shapeCast S1x32 (Wv (Proc.devRef .tc main_arg11)) shapeCasts_S32_S1x32 := by
  after_results_simp <;> rfl

set_option maxHeartbeats 4000000 in
/-- Stretch 3 does not write `main_v42`. -/
theorem keep3_v42 : StableHlo.after (hostOps3 (F := Ideal)) Wv (Proc.devRef .tc main_v42) = Wv (Proc.devRef .tc main_v42) := by
  after_results_simp <;> rfl

set_option maxHeartbeats 4000000 in
/-- Stretch 3 does not write `main_arg10`. -/
theorem keep3_arg10 : StableHlo.after (hostOps3 (F := Ideal)) Wv (Proc.devRef .tc main_arg10) = Wv (Proc.devRef .tc main_arg10) := by
  after_results_simp <;> rfl

set_option maxHeartbeats 4000000 in
/-- Stretch 3 does not write `main_arg12`. -/
theorem keep3_arg12 : StableHlo.after (hostOps3 (F := Ideal)) Wv (Proc.devRef .tc main_arg12) = Wv (Proc.devRef .tc main_arg12) := by
  after_results_simp <;> rfl

end Cert.KernelIdeal.Hand

end
-- ==== Proof.Rows.lean ====
/-
  One ENTRY of each stage, as arithmetic on the extended reals.

  A linear map's output feature j at a node is the sum over k of the node's feature k times W(j, k) (the weights are
  stored [out, in]); a layer adds the bias and a second such sum over the node's own features; a hidden layer
  takes max(·, 0); the output layer divides a row's entry by max(√(Σ of the row's squares), ε).
  Both programs are read down to these formulas: a kernel block's payload at a row of the block, and the host's
  whole-array stage at a row of the array, are the same function of that row's features and of the weights.
-/
import Idealize.ShloMosaic.PureOps.Ideal
import Idealize.ShloMosaic.Lib.ValueIdx

noncomputable section

open scoped BigOperators

namespace Cert.Sage

open Idealize.ShloMosaic Idealize.ShloMosaic.ValueIdx

/-- Output feature `j` of a linear map applied to one node's features `u`: Σₖ u k · W(j, k). -/
def dotRow {K N : Nat} (u : Fin K → EReal) (W : (⟨2, ![N, K]⟩ : Shape).Idx → EReal) (j : Fin N) : EReal :=
  ∑ k : Fin K, u k * W (ix2 j k)

/-- The projection's entry: the linear map plus the bias row's entry. -/
def projE {K N : Nat} (u : Fin K → EReal) (W : (⟨2, ![N, K]⟩ : Shape).Idx → EReal)
    (b : (⟨2, ![1, N]⟩ : Shape).Idx → EReal) (j : Fin N) : EReal :=
  dotRow u W j + b (ix2 (0 : Fin 1) j)

/-- A layer's linear part at one node: the aggregate's features through `Wl`, the bias, the node's own features
    through `Wr`, added in this order. -/
def combE {K N : Nat} (ua uh : Fin K → EReal) (Wl Wr : (⟨2, ![N, K]⟩ : Shape).Idx → EReal)
    (b : (⟨2, ![1, N]⟩ : Shape).Idx → EReal) (j : Fin N) : EReal :=
  dotRow ua Wl j + b (ix2 (0 : Fin 1) j) + dotRow uh Wr j

/-- max(z, 0), the zero being the float zero's value. -/
def reluE (z : EReal) : EReal := max z (Ideal.ofBits .f32 0x00000000#32)

/-- Entry `j` of a row `z` scaled to unit length: z j / max(√(Σₖ z k · z k), ε). -/
def unitE {N : Nat} (z : Fin N → EReal) (j : Fin N) : EReal :=
  Ideal.div (z j) (max (Ideal.sqrt (∑ k : Fin N, z k * z k)) (Ideal.ofBits .f32 0x2B8CBCCC#32))

end Cert.Sage

end
-- ==== Proof.SpecRead.lean ====
/-
  The host's stages read at one node. At the ideal values a `dot_general` is the sum over its contracted axis, a
  transposed weight matrix read at (k, j) is the matrix at (j, k), the bias row is the same for every node, and the
  row sum of squares is a sum over the row: so each whole-array stage of `Cert.Sage`, at node `r` and feature `j`,
  is the entry formula of Rows.lean applied to row `r` of its operands.
-/
import proofs.«118156_j50757923504416_2_alg».proof.Proof.Spec
import proofs.«118156_j50757923504416_2_alg».proof.Proof.Rows
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Sage

open Cert.ReferenceIdeal Cert.ReferenceIdeal.Gen Idealize.ShloMosaic Idealize.ShloMosaic.TcCoe Idealize.SL.Sem
open Idealize.ShloMosaic.ValueIdx

/-! ## The matrix products -/

/-- The left operand's row coordinate under `dot_S100000x128_S128x64_S100000x64_1_0_0_1_n_n` is the output's row. -/
theorem dg_128_64_l0 (i : S100000x64.Idx) (q : dot_S100000x128_S128x64_S100000x64_1_0_0_1_n_n.contr.Idx) : (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
/-- The right operand's column coordinate under `dot_S100000x128_S128x64_S100000x64_1_0_0_1_n_n` is the output's column. -/
theorem dg_128_64_r1 (i : S100000x64.Idx) (q : dot_S100000x128_S128x64_S100000x64_1_0_0_1_n_n.contr.Idx) : (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

/-- The host's product of an array with a [128, 64] matrix at node `r`, feature `j`: the sum over the contracted
    axis (the library's reading of `dot_general` at the ideal values, its contraction index matched with `Fin 128`). -/
theorem dg_128_64 {φ₁ φ₂ : FTy} (x : FVec Ideal S100000x128 φ₁) (y : FVec Ideal S128x64 φ₂) (r : Fin 100000) (j : Fin 64) :
    Host.dotGeneral dot_S100000x128_S128x64_S100000x64_1_0_0_1_n_n none x y (ix2 r j) = ∑ k : Fin 128, x (ix2 r k) * y (ix2 k j) := by
  simp only [Host.dotGeneral]
  rw [Ideal.dotGeneral_apply, ← Equiv.sum_comp (contrEquiv1 dot_S100000x128_S128x64_S100000x64_1_0_0_1_n_n 128 rfl rfl).symm]
  refine Finset.sum_congr rfl fun k _ => ?_
  have hk := contrEquiv1_symm_val dot_S100000x128_S128x64_S100000x64_1_0_0_1_n_n 128 rfl rfl k
  have el : dot_S100000x128_S128x64_S100000x64_1_0_0_1_n_n.lhsIdx (ix2 r j) ((contrEquiv1 dot_S100000x128_S128x64_S100000x64_1_0_0_1_n_n 128 rfl rfl).symm k) = ix2 r k := funext fun a => Fin.ext (by
    match a with
    | ⟨0, _⟩ => exact dg_128_64_l0 _ _
    | ⟨1, _⟩ => exact (dot_S100000x128_S128x64_S100000x64_1_0_0_1_n_n.lhsIdx_val_of_single rfl _ _).trans hk)
  have er : dot_S100000x128_S128x64_S100000x64_1_0_0_1_n_n.rhsIdx (ix2 r j) ((contrEquiv1 dot_S100000x128_S128x64_S100000x64_1_0_0_1_n_n 128 rfl rfl).symm k) = ix2 k j := funext fun a => Fin.ext (by
    match a with
    | ⟨0, _⟩ => exact (dot_S100000x128_S128x64_S100000x64_1_0_0_1_n_n.rhsIdx_val_of_single rfl _ _).trans hk
    | ⟨1, _⟩ => exact dg_128_64_r1 _ _)
  rw [el, er]

/-- The [64, 128] weights transposed read, at (k, j), the weights at (j, k). -/
theorem htr_128_64 {α : Type} (w : S64x128.Idx → α) (h : S64x128.Transposes [1, 0] S128x64) (k : Fin 128) (j : Fin 64) :
    transpose S128x64 [1, 0] w h (ix2 k j) = w (ix2 j k) := transpose_ix2_apply w h k j

/-- The same product against TRANSPOSED weights `w` stored [64, 128]: Σₖ x(r, k) · w(j, k). -/
theorem dg_128_64T {φ₁ φ₂ : FTy} (x : FVec Ideal S100000x128 φ₁) (w : FVec Ideal S64x128 φ₂) (h : S64x128.Transposes [1, 0] S128x64) (r : Fin 100000) (j : Fin 64) :
    Host.dotGeneral dot_S100000x128_S128x64_S100000x64_1_0_0_1_n_n none x (transpose S128x64 [1, 0] w h) (ix2 r j) = ∑ k : Fin 128, x (ix2 r k) * w (ix2 j k) :=
  (dg_128_64 x _ r j).trans (Finset.sum_congr rfl fun k _ => by rw [htr_128_64])

/-- The left operand's row coordinate under `dot_S100000x64_S64x64_S100000x64_1_0_0_1_n_n` is the output's row. -/
theorem dg_64_64_l0 (i : S100000x64.Idx) (q : dot_S100000x64_S64x64_S100000x64_1_0_0_1_n_n.contr.Idx) : (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
/-- The right operand's column coordinate under `dot_S100000x64_S64x64_S100000x64_1_0_0_1_n_n` is the output's column. -/
theorem dg_64_64_r1 (i : S100000x64.Idx) (q : dot_S100000x64_S64x64_S100000x64_1_0_0_1_n_n.contr.Idx) : (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

/-- The host's product of an array with a [64, 64] matrix at node `r`, feature `j`: the sum over the contracted
    axis (the library's reading of `dot_general` at the ideal values, its contraction index matched with `Fin 64`). -/
theorem dg_64_64 {φ₁ φ₂ : FTy} (x : FVec Ideal S100000x64 φ₁) (y : FVec Ideal S64x64 φ₂) (r : Fin 100000) (j : Fin 64) :
    Host.dotGeneral dot_S100000x64_S64x64_S100000x64_1_0_0_1_n_n none x y (ix2 r j) = ∑ k : Fin 64, x (ix2 r k) * y (ix2 k j) := by
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 r j) ((contrEquiv1 dot_S100000x64_S64x64_S100000x64_1_0_0_1_n_n 64 rfl rfl).symm k) = ix2 r k := funext fun a => Fin.ext (by
    match a with
    | ⟨0, _⟩ => exact dg_64_64_l0 _ _
    | ⟨1, _⟩ => exact (dot_S100000x64_S64x64_S100000x64_1_0_0_1_n_n.lhsIdx_val_of_single rfl _ _).trans hk)
  have er : dot_S100000x64_S64x64_S100000x64_1_0_0_1_n_n.rhsIdx (ix2 r j) ((contrEquiv1 dot_S100000x64_S64x64_S100000x64_1_0_0_1_n_n 64 rfl rfl).symm k) = ix2 k j := funext fun a => Fin.ext (by
    match a with
    | ⟨0, _⟩ => exact (dot_S100000x64_S64x64_S100000x64_1_0_0_1_n_n.rhsIdx_val_of_single rfl _ _).trans hk
    | ⟨1, _⟩ => exact dg_64_64_r1 _ _)
  rw [el, er]

/-- The [64, 64] weights transposed read, at (k, j), the weights at (j, k). -/
theorem htr_64_64 {α : Type} (w : S64x64.Idx → α) (h : S64x64.Transposes [1, 0] S64x64) (k : Fin 64) (j : Fin 64) :
    transpose S64x64 [1, 0] w h (ix2 k j) = w (ix2 j k) := transpose_ix2_apply w h k j

/-- The same product against TRANSPOSED weights `w` stored [64, 64]: Σₖ x(r, k) · w(j, k). -/
theorem dg_64_64T {φ₁ φ₂ : FTy} (x : FVec Ideal S100000x64 φ₁) (w : FVec Ideal S64x64 φ₂) (h : S64x64.Transposes [1, 0] S64x64) (r : Fin 100000) (j : Fin 64) :
    Host.dotGeneral dot_S100000x64_S64x64_S100000x64_1_0_0_1_n_n none x (transpose S64x64 [1, 0] w h) (ix2 r j) = ∑ k : Fin 64, x (ix2 r k) * w (ix2 j k) :=
  (dg_64_64 x _ r j).trans (Finset.sum_congr rfl fun k _ => by rw [htr_64_64])

/-- The left operand's row coordinate under `dot_S100000x64_S64x32_S100000x32_1_0_0_1_n_n` is the output's row. -/
theorem dg_64_32_l0 (i : S100000x32.Idx) (q : dot_S100000x64_S64x32_S100000x32_1_0_0_1_n_n.contr.Idx) : (dot_S100000x64_S64x32_S100000x32_1_0_0_1_n_n.lhsIdx i q 0).val = (i 0).val := by
  unfold DotDims.lhsIdx
  rw [dif_neg (show ¬(0 : Fin S100000x64.rank) ∈ dot_S100000x64_S64x32_S100000x32_1_0_0_1_n_n.lhsBatch by decide), dif_pos (show (0 : Fin S100000x64.rank) ∈ dot_S100000x64_S64x32_S100000x32_1_0_0_1_n_n.lhsNonContracting by decide)]
  rfl
/-- The right operand's column coordinate under `dot_S100000x64_S64x32_S100000x32_1_0_0_1_n_n` is the output's column. -/
theorem dg_64_32_r1 (i : S100000x32.Idx) (q : dot_S100000x64_S64x32_S100000x32_1_0_0_1_n_n.contr.Idx) : (dot_S100000x64_S64x32_S100000x32_1_0_0_1_n_n.rhsIdx i q 1).val = (i 1).val := by
  unfold DotDims.rhsIdx
  rw [dif_neg (show ¬(1 : Fin S64x32.rank) ∈ dot_S100000x64_S64x32_S100000x32_1_0_0_1_n_n.rhsBatch by decide), dif_pos (show (1 : Fin S64x32.rank) ∈ dot_S100000x64_S64x32_S100000x32_1_0_0_1_n_n.rhsNonContracting by decide)]
  rfl

/-- The host's product of an array with a [64, 32] matrix at node `r`, feature `j`: the sum over the contracted
    axis (the library's reading of `dot_general` at the ideal values, its contraction index matched with `Fin 64`). -/
theorem dg_64_32 {φ₁ φ₂ : FTy} (x : FVec Ideal S100000x64 φ₁) (y : FVec Ideal S64x32 φ₂) (r : Fin 100000) (j : Fin 32) :
    Host.dotGeneral dot_S100000x64_S64x32_S100000x32_1_0_0_1_n_n none x y (ix2 r j) = ∑ k : Fin 64, x (ix2 r k) * y (ix2 k j) := by
  simp only [Host.dotGeneral]
  rw [Ideal.dotGeneral_apply, ← Equiv.sum_comp (contrEquiv1 dot_S100000x64_S64x32_S100000x32_1_0_0_1_n_n 64 rfl rfl).symm]
  refine Finset.sum_congr rfl fun k _ => ?_
  have hk := contrEquiv1_symm_val dot_S100000x64_S64x32_S100000x32_1_0_0_1_n_n 64 rfl rfl k
  have el : dot_S100000x64_S64x32_S100000x32_1_0_0_1_n_n.lhsIdx (ix2 r j) ((contrEquiv1 dot_S100000x64_S64x32_S100000x32_1_0_0_1_n_n 64 rfl rfl).symm k) = ix2 r k := funext fun a => Fin.ext (by
    match a with
    | ⟨0, _⟩ => exact dg_64_32_l0 _ _
    | ⟨1, _⟩ => exact (dot_S100000x64_S64x32_S100000x32_1_0_0_1_n_n.lhsIdx_val_of_single rfl _ _).trans hk)
  have er : dot_S100000x64_S64x32_S100000x32_1_0_0_1_n_n.rhsIdx (ix2 r j) ((contrEquiv1 dot_S100000x64_S64x32_S100000x32_1_0_0_1_n_n 64 rfl rfl).symm k) = ix2 k j := funext fun a => Fin.ext (by
    match a with
    | ⟨0, _⟩ => exact (dot_S100000x64_S64x32_S100000x32_1_0_0_1_n_n.rhsIdx_val_of_single rfl _ _).trans hk
    | ⟨1, _⟩ => exact dg_64_32_r1 _ _)
  rw [el, er]

/-- The [32, 64] weights transposed read, at (k, j), the weights at (j, k). -/
theorem htr_64_32 {α : Type} (w : S32x64.Idx → α) (h : S32x64.Transposes [1, 0] S64x32) (k : Fin 64) (j : Fin 32) :
    transpose S64x32 [1, 0] w h (ix2 k j) = w (ix2 j k) := transpose_ix2_apply w h k j

/-- The same product against TRANSPOSED weights `w` stored [32, 64]: Σₖ x(r, k) · w(j, k). -/
theorem dg_64_32T {φ₁ φ₂ : FTy} (x : FVec Ideal S100000x64 φ₁) (w : FVec Ideal S32x64 φ₂) (h : S32x64.Transposes [1, 0] S64x32) (r : Fin 100000) (j : Fin 32) :
    Host.dotGeneral dot_S100000x64_S64x32_S100000x32_1_0_0_1_n_n none x (transpose S64x32 [1, 0] w h) (ix2 r j) = ∑ k : Fin 64, x (ix2 r k) * w (ix2 j k) :=
  (dg_64_32 x _ r j).trans (Finset.sum_congr rfl fun k _ => by rw [htr_64_32])

/-! ## The broadcasts -/

/-- The [1, 64] bias row broadcast over the nodes reads the row. -/
theorem hbias_64 {α : Type} (b2 : S1x64.Idx → α) (h : S1x64.BroadcastsInDim S100000x64 (![0, 1] : Fin 2 → Fin S100000x64.rank))
    (r : Fin 100000) (j : Fin 64) : broadcastInDim S100000x64 ![0, 1] h b2 (ix2 r j) = b2 (ix2 (0 : Fin 1) j) :=
  broadcastInDim_apply _ h b2 (ix2 r j) (ix2 (0 : Fin 1) j) (fun a => match a with
    | ⟨0, _⟩ => by show (0 : Nat) = if (1 : Nat) = 1 then 0 else r.val; rw [if_pos rfl]
    | ⟨1, _⟩ => by show j.val = if (64 : Nat) = 1 then 0 else j.val; rw [if_neg (by decide)])

/-- The [1, 32] bias row broadcast over the nodes reads the row. -/
theorem hbias_32 {α : Type} (b2 : S1x32.Idx → α) (h : S1x32.BroadcastsInDim S100000x32 (![0, 1] : Fin 2 → Fin S100000x32.rank))
    (r : Fin 100000) (j : Fin 32) : broadcastInDim S100000x32 ![0, 1] h b2 (ix2 r j) = b2 (ix2 (0 : Fin 1) j) :=
  broadcastInDim_apply _ h b2 (ix2 r j) (ix2 (0 : Fin 1) j) (fun a => match a with
    | ⟨0, _⟩ => by show (0 : Nat) = if (1 : Nat) = 1 then 0 else r.val; rw [if_pos rfl]
    | ⟨1, _⟩ => by show j.val = if (32 : Nat) = 1 then 0 else j.val; rw [if_neg (by decide)])

/-- A scalar splat over the [100000, 64] array reads the scalar. -/
theorem splat_64 {α : Type} (v : S_.Idx → α) (h : S_.BroadcastsInDim S100000x64 (![] : Fin 0 → Fin S100000x64.rank)) (i : S100000x64.Idx) :
    broadcastInDim S100000x64 ![] h v i = v ix0 :=
  broadcastInDim_apply _ h v i ix0 (fun a => a.elim0)

/-- A scalar splat over the [100000, 1] column reads the scalar. -/
theorem splat_col {α : Type} (v : S_.Idx → α) (h : S_.BroadcastsInDim S100000x1 (![] : Fin 0 → Fin S100000x1.rank)) (i : S100000x1.Idx) :
    broadcastInDim S100000x1 ![] h v i = v ix0 :=
  broadcastInDim_apply _ h v i ix0 (fun a => a.elim0)

/-- A [100000] vector as a [100000, 1] column reads, at (r, u), the vector at r. -/
theorem hcol_apply {α : Type} (v : S100000.Idx → α) (h : S100000.BroadcastsInDim S100000x1 (![0] : Fin 1 → Fin S100000x1.rank))
    (r : Fin 100000) (u : Fin 1) : broadcastInDim S100000x1 ![0] h v (ix2 r u) = v (ix1 r) :=
  broadcastInDim_apply _ h v (ix2 r u) (ix1 r) (fun a => match a with
    | ⟨0, _⟩ => by show r.val = if (100000 : Nat) = 1 then 0 else r.val; rw [if_neg (by decide)])

/-- A [100000, 1] column broadcast along the rows reads, at (r, j), the column at (r, 0). -/
theorem hcolb_apply {α : Type} (v : S100000x1.Idx → α) (h : S100000x1.BroadcastsInDim S100000x32 (![0, 1] : Fin 2 → Fin S100000x32.rank))
    (r : Fin 100000) (j : Fin 32) : broadcastInDim S100000x32 ![0, 1] h v (ix2 r j) = v (ix2 r (0 : Fin 1)) :=
  broadcastInDim_apply _ h v (ix2 r j) (ix2 r (0 : Fin 1)) (fun a => match a with
    | ⟨0, _⟩ => by show r.val = if (100000 : Nat) = 1 then 0 else r.val; rw [if_neg (by decide)]
    | ⟨1, _⟩ => by show (0 : Nat) = if (1 : Nat) = 1 then 0 else j.val; rw [if_pos rfl])

/-- The host's sum over a row of a [100000, 32] array: the initial value plus the row's sum. -/
theorem hsum_apply (z : FVec Ideal S100000x32 .f32) (r : Fin 100000) :
    Host.reduceAdd z (constant (F := Ideal) S_ .f32 0x00000000#32) reducesTo_S100000x32_S100000_d1 h_S_ (ix1 r)
      = Ideal.ofBits .f32 0x00000000#32 + ∑ k : Fin 32, z (ix2 r k) := by
  simp only [Host.reduceAdd, Ideal.hostReduceAdd_def]
  rw [Ideal.hostReduceAdd_single reducesTo_S100000x32_S100000_d1 (by decide)]
  refine congrArg (_ + ·) (Finset.sum_congr rfl fun k _ => ?_)
  exact congrArg z (funext fun a => Fin.ext (by match a with | ⟨0, _⟩ => rfl | ⟨1, _⟩ => rfl))

/-! ## The stages -/

/-- The projection at node `r`, feature `j`. -/
theorem proj_apply (x : TF Ideal S100000x128) (W : TF Ideal S64x128) (b2 : TF Ideal S1x64) (r : Fin 100000) (j : Fin 64) :
    proj (F := Ideal) x W b2 (ix2 r j) = projE (fun k : Fin 128 => x (ix2 r k)) W b2 j := by
  unfold proj projE dotRow
  rw [addf_apply, dg_128_64T, hbias_64]

/-- A layer's linear part into 64 features at node `r`, feature `j`. -/
theorem comb64_apply (a h : TF Ideal S100000x64) (Wl : TF Ideal S64x64) (b2 : TF Ideal S1x64) (Wr : TF Ideal S64x64)
    (r : Fin 100000) (j : Fin 64) :
    comb64 (F := Ideal) a h Wl b2 Wr (ix2 r j)
      = combE (fun k : Fin 64 => a (ix2 r k)) (fun k : Fin 64 => h (ix2 r k)) Wl Wr b2 j := by
  unfold comb64 combE dotRow
  rw [addf_apply, addf_apply, dg_64_64T, dg_64_64T, hbias_64]

/-- A hidden layer at node `r`, feature `j`. -/
theorem hidden_apply (a h : TF Ideal S100000x64) (Wl : TF Ideal S64x64) (b2 : TF Ideal S1x64) (Wr : TF Ideal S64x64)
    (r : Fin 100000) (j : Fin 64) :
    hidden (F := Ideal) a h Wl b2 Wr (ix2 r j)
      = reluE (combE (fun k : Fin 64 => a (ix2 r k)) (fun k : Fin 64 => h (ix2 r k)) Wl Wr b2 j) := by
  unfold hidden relu64 reluE
  rw [maximumf_apply, splat_64, comb64_apply]
  rfl

/-- The last layer's linear part at node `r`, feature `j`. -/
theorem comb32_apply (a h : TF Ideal S100000x64) (Wl : TF Ideal S32x64) (b2 : TF Ideal S1x32) (Wr : TF Ideal S32x64)
    (r : Fin 100000) (j : Fin 32) :
    comb32 (F := Ideal) a h Wl b2 Wr (ix2 r j)
      = combE (fun k : Fin 64 => a (ix2 r k)) (fun k : Fin 64 => h (ix2 r k)) Wl Wr b2 j := by
  unfold comb32 combE dotRow
  rw [addf_apply, addf_apply, dg_64_32T, dg_64_32T, hbias_32]

/-- The host's quotient read at an index. -/
theorem hdivf_apply {s : Shape} {φ : FTy} (x y : FVec Ideal s φ) (i : s.Idx) : Host.divf x y i = Ideal.div (x i) (y i) := rfl
/-- The host's square root read at an index. -/
theorem hsqrt_apply {s : Shape} {φ : FTy} (x : FVec Ideal s φ) (i : s.Idx) : Host.sqrt x i = Ideal.sqrt (x i) := rfl

/-- The rows scaled to unit length at node `r`, feature `j`. -/
theorem unitRows_apply (z : TF Ideal S100000x32) (r : Fin 100000) (j : Fin 32) :
    unitRows (F := Ideal) z (ix2 r j) = unitE (fun j' : Fin 32 => z (ix2 r j')) j := by
  unfold unitRows unitE
  rw [hdivf_apply, hcolb_apply, maximumf_apply, splat_col, hsqrt_apply, hcol_apply, hsum_apply, Ideal.ofBits_zero_f32, zero_add]
  rfl

/-- The output layer at node `r`, feature `j`. -/
theorem outLayer_apply (a h : TF Ideal S100000x64) (Wl : TF Ideal S32x64) (b2 : TF Ideal S1x32) (Wr : TF Ideal S32x64)
    (r : Fin 100000) (j : Fin 32) :
    outLayer (F := Ideal) a h Wl b2 Wr (ix2 r j)
      = unitE (fun j' : Fin 32 => combE (fun k : Fin 64 => a (ix2 r k)) (fun k : Fin 64 => h (ix2 r k)) Wl Wr b2 j') j := by
  unfold outLayer
  rw [unitRows_apply]
  simp only [comb32_apply]

end Cert.Sage

end
-- ==== Proof.Payload.lean ====
/-
  The kernel bodies' payloads read at one row of a block. At the ideal values the roundings to bf16 are the identity, a
  `tpu.matmul` into a zero accumulator is the sum over the contracted axis, the transposed weight block read at (k, j)
  is the block at (j, k), the bias row is broadcast down the block, and the lane reduction of the squares is a sum over
  the row: so each body's stored value, at row `p` of the block and feature `j`, is the entry formula of Rows.lean
  applied to row `p` of the loaded blocks.
-/
import proofs.«118156_j50757923504416_2_alg».proof.Proof.Gen.KernelIdeal.Skeleton
import proofs.«118156_j50757923504416_2_alg».proof.Proof.Rows
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx

/-! ## The matrix products -/

/-- The left operand's row coordinate under `dot_S10000x128_S128x64_S10000x64_1_0_0_1_n_n` is the output's row. -/
theorem mm_128_64_l0 (i : S10000x64.Idx) (q : dot_S10000x128_S128x64_S10000x64_1_0_0_1_n_n.contr.Idx) : (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
/-- The right operand's column coordinate under `dot_S10000x128_S128x64_S10000x64_1_0_0_1_n_n` is the output's column. -/
theorem mm_128_64_r1 (i : S10000x64.Idx) (q : dot_S10000x128_S128x64_S10000x64_1_0_0_1_n_n.contr.Idx) : (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- A block times a [128, 64] matrix, into a zero accumulator, at row `p` and column `j`: the sum over the
    contracted axis (the library's reading of a matmul, its contraction index matched with `Fin 128`). -/
theorem mm_128_64 {φ₁ φ₂ : FTy} (x : FVec Ideal S10000x128 φ₁) (y : FVec Ideal S128x64 φ₂) (p : Fin 10000) (j : Fin 64) :
    matmul dot_S10000x128_S128x64_S10000x64_1_0_0_1_n_n none x y (constant S10000x64 .f32 0x00000000#32) (ix2 p j)
      = ∑ k : Fin 128, x (ix2 p k) * y (ix2 k j) := by
  simp only [matmul]
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p j) ((contrEquiv1 dot_S10000x128_S128x64_S10000x64_1_0_0_1_n_n 128 rfl rfl).symm k) = ix2 p k := funext fun a => Fin.ext (by
    match a with
    | ⟨0, _⟩ => exact mm_128_64_l0 _ _
    | ⟨1, _⟩ => exact (dot_S10000x128_S128x64_S10000x64_1_0_0_1_n_n.lhsIdx_val_of_single rfl _ _).trans hk)
  have er : dot_S10000x128_S128x64_S10000x64_1_0_0_1_n_n.rhsIdx (ix2 p j) ((contrEquiv1 dot_S10000x128_S128x64_S10000x64_1_0_0_1_n_n 128 rfl rfl).symm k) = ix2 k j := funext fun a => Fin.ext (by
    match a with
    | ⟨0, _⟩ => exact (dot_S10000x128_S128x64_S10000x64_1_0_0_1_n_n.rhsIdx_val_of_single rfl _ _).trans hk
    | ⟨1, _⟩ => exact mm_128_64_r1 _ _)
  rw [el, er]

/-- The left operand's row coordinate under `dot_S10000x64_S64x64_S10000x64_1_0_0_1_n_n` is the output's row. -/
theorem mm_64_64_l0 (i : S10000x64.Idx) (q : dot_S10000x64_S64x64_S10000x64_1_0_0_1_n_n.contr.Idx) : (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- The right operand's column coordinate under `dot_S10000x64_S64x64_S10000x64_1_0_0_1_n_n` is the output's column. -/
theorem mm_64_64_r1 (i : S10000x64.Idx) (q : dot_S10000x64_S64x64_S10000x64_1_0_0_1_n_n.contr.Idx) : (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A block times a [64, 64] matrix, into a zero accumulator, at row `p` and column `j`: the sum over the
    contracted axis (the library's reading of a matmul, its contraction index matched with `Fin 64`). -/
theorem mm_64_64 {φ₁ φ₂ : FTy} (x : FVec Ideal S10000x64 φ₁) (y : FVec Ideal S64x64 φ₂) (p : Fin 10000) (j : Fin 64) :
    matmul dot_S10000x64_S64x64_S10000x64_1_0_0_1_n_n none x y (constant S10000x64 .f32 0x00000000#32) (ix2 p j)
      = ∑ k : Fin 64, x (ix2 p k) * y (ix2 k j) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p j) ((contrEquiv1 dot_S10000x64_S64x64_S10000x64_1_0_0_1_n_n 64 rfl rfl).symm k) = ix2 p k := funext fun a => Fin.ext (by
    match a with
    | ⟨0, _⟩ => exact mm_64_64_l0 _ _
    | ⟨1, _⟩ => exact (dot_S10000x64_S64x64_S10000x64_1_0_0_1_n_n.lhsIdx_val_of_single rfl _ _).trans hk)
  have er : dot_S10000x64_S64x64_S10000x64_1_0_0_1_n_n.rhsIdx (ix2 p j) ((contrEquiv1 dot_S10000x64_S64x64_S10000x64_1_0_0_1_n_n 64 rfl rfl).symm k) = ix2 k j := funext fun a => Fin.ext (by
    match a with
    | ⟨0, _⟩ => exact (dot_S10000x64_S64x64_S10000x64_1_0_0_1_n_n.rhsIdx_val_of_single rfl _ _).trans hk
    | ⟨1, _⟩ => exact mm_64_64_r1 _ _)
  rw [el, er]

/-- The left operand's row coordinate under `dot_S10000x64_S64x32_S10000x32_1_0_0_1_n_n` is the output's row. -/
theorem mm_64_32_l0 (i : S10000x32.Idx) (q : dot_S10000x64_S64x32_S10000x32_1_0_0_1_n_n.contr.Idx) : (dot_S10000x64_S64x32_S10000x32_1_0_0_1_n_n.lhsIdx i q 0).val = (i 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
/-- The right operand's column coordinate under `dot_S10000x64_S64x32_S10000x32_1_0_0_1_n_n` is the output's column. -/
theorem mm_64_32_r1 (i : S10000x32.Idx) (q : dot_S10000x64_S64x32_S10000x32_1_0_0_1_n_n.contr.Idx) : (dot_S10000x64_S64x32_S10000x32_1_0_0_1_n_n.rhsIdx i q 1).val = (i 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

/-- A block times a [64, 32] matrix, into a zero accumulator, at row `p` and column `j`: the sum over the
    contracted axis (the library's reading of a matmul, its contraction index matched with `Fin 64`). -/
theorem mm_64_32 {φ₁ φ₂ : FTy} (x : FVec Ideal S10000x64 φ₁) (y : FVec Ideal S64x32 φ₂) (p : Fin 10000) (j : Fin 32) :
    matmul dot_S10000x64_S64x32_S10000x32_1_0_0_1_n_n none x y (constant S10000x32 .f32 0x00000000#32) (ix2 p j)
      = ∑ k : Fin 64, x (ix2 p k) * y (ix2 k j) := by
  simp only [matmul]
  rw [Ideal.matmul_constant_zero_apply, ← Equiv.sum_comp (contrEquiv1 dot_S10000x64_S64x32_S10000x32_1_0_0_1_n_n 64 rfl rfl).symm]
  refine Finset.sum_congr rfl fun k _ => ?_
  have hk := contrEquiv1_symm_val dot_S10000x64_S64x32_S10000x32_1_0_0_1_n_n 64 rfl rfl k
  have el : dot_S10000x64_S64x32_S10000x32_1_0_0_1_n_n.lhsIdx (ix2 p j) ((contrEquiv1 dot_S10000x64_S64x32_S10000x32_1_0_0_1_n_n 64 rfl rfl).symm k) = ix2 p k := funext fun a => Fin.ext (by
    match a with
    | ⟨0, _⟩ => exact mm_64_32_l0 _ _
    | ⟨1, _⟩ => exact (dot_S10000x64_S64x32_S10000x32_1_0_0_1_n_n.lhsIdx_val_of_single rfl _ _).trans hk)
  have er : dot_S10000x64_S64x32_S10000x32_1_0_0_1_n_n.rhsIdx (ix2 p j) ((contrEquiv1 dot_S10000x64_S64x32_S10000x32_1_0_0_1_n_n 64 rfl rfl).symm k) = ix2 k j := funext fun a => Fin.ext (by
    match a with
    | ⟨0, _⟩ => exact (dot_S10000x64_S64x32_S10000x32_1_0_0_1_n_n.rhsIdx_val_of_single rfl _ _).trans hk
    | ⟨1, _⟩ => exact mm_64_32_r1 _ _)
  rw [el, er]

/-! ## The transposed weight blocks -/

/-- The [64, 128] weights transposed read, at (k, j), the weights at (j, k). -/
theorem tr_128_64 {α : Type} (w : S64x128.Idx → α) (h : S64x128.Transposes [1, 0] S128x64) (k : Fin 128) (j : Fin 64) :
    transpose S128x64 [1, 0] w h (ix2 k j) = w (ix2 j k) := transpose_ix2_apply w h k j
/-- The [64, 64] weights transposed read, at (k, j), the weights at (j, k). -/
theorem tr_64_64 {α : Type} (w : S64x64.Idx → α) (h : S64x64.Transposes [1, 0] S64x64) (k : Fin 64) (j : Fin 64) :
    transpose S64x64 [1, 0] w h (ix2 k j) = w (ix2 j k) := transpose_ix2_apply w h k j
/-- The [32, 64] weights transposed read, at (k, j), the weights at (j, k). -/
theorem tr_64_32 {α : Type} (w : S32x64.Idx → α) (h : S32x64.Transposes [1, 0] S64x32) (k : Fin 64) (j : Fin 32) :
    transpose S64x32 [1, 0] w h (ix2 k j) = w (ix2 j k) := transpose_ix2_apply w h k j

/-- The same product against TRANSPOSED weights `w` stored [64, 128]: Σₖ x(p, k) · w(j, k). -/
theorem mmT_128_64 {φ₁ φ₂ : FTy} (x : FVec Ideal S10000x128 φ₁) (w : FVec Ideal S64x128 φ₂) (h : S64x128.Transposes [1, 0] S128x64) (p : Fin 10000) (j : Fin 64) :
    matmul dot_S10000x128_S128x64_S10000x64_1_0_0_1_n_n none x (transpose S128x64 [1, 0] w h) (constant S10000x64 .f32 0x00000000#32) (ix2 p j)
      = ∑ k : Fin 128, x (ix2 p k) * w (ix2 j k) :=
  (mm_128_64 x _ p j).trans (Finset.sum_congr rfl fun k _ => by rw [tr_128_64])

/-- The same product against TRANSPOSED weights `w` stored [64, 64]: Σₖ x(p, k) · w(j, k). -/
theorem mmT_64_64 {φ₁ φ₂ : FTy} (x : FVec Ideal S10000x64 φ₁) (w : FVec Ideal S64x64 φ₂) (h : S64x64.Transposes [1, 0] S64x64) (p : Fin 10000) (j : Fin 64) :
    matmul dot_S10000x64_S64x64_S10000x64_1_0_0_1_n_n none x (transpose S64x64 [1, 0] w h) (constant S10000x64 .f32 0x00000000#32) (ix2 p j)
      = ∑ k : Fin 64, x (ix2 p k) * w (ix2 j k) :=
  (mm_64_64 x _ p j).trans (Finset.sum_congr rfl fun k _ => by rw [tr_64_64])

/-- The same product against TRANSPOSED weights `w` stored [32, 64]: Σₖ x(p, k) · w(j, k). -/
theorem mmT_64_32 {φ₁ φ₂ : FTy} (x : FVec Ideal S10000x64 φ₁) (w : FVec Ideal S32x64 φ₂) (h : S32x64.Transposes [1, 0] S64x32) (p : Fin 10000) (j : Fin 32) :
    matmul dot_S10000x64_S64x32_S10000x32_1_0_0_1_n_n none x (transpose S64x32 [1, 0] w h) (constant S10000x32 .f32 0x00000000#32) (ix2 p j)
      = ∑ k : Fin 64, x (ix2 p k) * w (ix2 j k) :=
  (mm_64_32 x _ p j).trans (Finset.sum_congr rfl fun k _ => by rw [tr_64_32])

/-- The [1, 64] bias row broadcast down a block reads the row. -/
theorem bias_64 {α : Type} (v : S1x64.Idx → α) (h : S1x64.Broadcasts S10000x64) (p : Fin 10000) (j : Fin 64) :
    broadcastTo S10000x64 v h (ix2 p j) = v (ix2 (0 : Fin 1) j) := broadcastTo_1b_ab_apply v h p j
/-- The [1, 32] bias row broadcast down a block reads the row. -/
theorem bias_32 {α : Type} (v : S1x32.Idx → α) (h : S1x32.Broadcasts S10000x32) (p : Fin 10000) (j : Fin 32) :
    broadcastTo S10000x32 v h (ix2 p j) = v (ix2 (0 : Fin 1) j) := broadcastTo_1b_ab_apply v h p j

/-! ## The layout operations of the last body -/

/-- A [10000] vector cast to a [10000, 1] column reads, at (p, u), the vector at p. -/
theorem col_cast_apply {α : Type} (v : S10000.Idx → α) (h : S10000.ShapeCasts S10000x1) (p : Fin 10000) (u : Fin 1) :
    shapeCast S10000x1 v h (ix2 p u) = v (ix1 p) :=
  shapeCast_apply v h _ _ (by
    have hu : u.val = 0 := by omega
    rw [Shape.rowMajor_val_two, Shape.rowMajor_val_one]
    show p.val = p.val * 1 + u.val
    omega)

/-- A [10000, 1] column broadcast along the rows reads, at (p, j), the column at (p, 0). -/
theorem col_bcast_apply {α : Type} (v : S10000x1.Idx → α) (h : S10000x1.Broadcasts S10000x32) (p : Fin 10000) (j : Fin 32) :
    broadcastTo S10000x32 v h (ix2 p j) = v (ix2 p (0 : Fin 1)) := by
  refine broadcastTo_apply v h (ix2 p j) (ix2 p (0 : Fin 1)) fun ax => ?_
  match ax with
  | ⟨0, _⟩ =>
    show p.val = if (10000 : Nat) = 1 then 0 else p.val
    rw [if_neg (by decide)]
  | ⟨1, _⟩ => rfl

/-- The lane reduction of a [10000, 32] block at row p: the sum of the row. -/
theorem row_sum_apply (z : FVec Ideal S10000x32 .f32) (hr : S10000x32.Reduces [1] S10000)
    (hacc : (0x00000000#32 : BitVec 32) = 0x00000000#32) (p : Fin 10000) :
    multiReduction .add [1] S10000 z 0x00000000#32 hr (.inl rfl) hacc (ix1 p) = ∑ k : Fin 32, z (ix2 p k) := by
  refine (Ideal.multiReduction_add_single z 0x00000000#32 hr (.inl rfl) hacc (ix1 p)).trans ?_
  refine Finset.sum_congr rfl fun k _ => congrArg z (funext fun a => Fin.ext ?_)
  match a with
  | ⟨0, _⟩ => rfl
  | ⟨1, _⟩ => rfl

/-! ## The payloads -/

/-- The projection body's stored value at row `p`, feature `j`. -/
theorem pay0_apply (v0 : Vec Ideal S10000x128 .f32) (v2 : Vec Ideal S64x128 .f32) (v6 : Vec Ideal S1x64 .f32)
    (p : Fin 10000) (j : Fin 64) :
    k0_pay1 v0 v2 v6 (ix2 p j) = Cert.Sage.projE (fun k : Fin 128 => v0 (ix2 p k)) v2 v6 j := by
  unfold k0_pay1 Cert.Sage.projE Cert.Sage.dotRow
  simp only [addf_apply]
  rw [mmT_128_64, bias_64]
  simp only [truncf_apply, shapeCast_self]

/-- The first hidden layer's stored value at row `p`, feature `j`. -/
theorem pay1_apply (v0 v3 : Vec Ideal S10000x64 .f32) (v6 v8 : Vec Ideal S64x64 .f32) (v12 : Vec Ideal S1x64 .f32)
    (p : Fin 10000) (j : Fin 64) :
    k1_pay1 v0 v3 v6 v8 v12 (ix2 p j)
      = Cert.Sage.reluE (Cert.Sage.combE (fun k : Fin 64 => v0 (ix2 p k)) (fun k : Fin 64 => v3 (ix2 p k)) v6 v8 v12 j) := by
  unfold k1_pay1 Cert.Sage.reluE Cert.Sage.combE Cert.Sage.dotRow
  simp only [maximumf_apply, addf_apply, broadcast_apply]
  rw [mmT_64_64, mmT_64_64, bias_64]
  simp only [truncf_apply, shapeCast_self, Scalar.ofBits, Ideal.ofBits_def]

/-- The second hidden layer's stored value at row `p`, feature `j`. -/
theorem pay2_apply (v0 v3 : Vec Ideal S10000x64 .f32) (v6 v8 : Vec Ideal S64x64 .f32) (v12 : Vec Ideal S1x64 .f32)
    (p : Fin 10000) (j : Fin 64) :
    k2_pay1 v0 v3 v6 v8 v12 (ix2 p j)
      = Cert.Sage.reluE (Cert.Sage.combE (fun k : Fin 64 => v0 (ix2 p k)) (fun k : Fin 64 => v3 (ix2 p k)) v6 v8 v12 j) := by
  unfold k2_pay1 Cert.Sage.reluE Cert.Sage.combE Cert.Sage.dotRow
  simp only [maximumf_apply, addf_apply, broadcast_apply]
  rw [mmT_64_64, mmT_64_64, bias_64]
  simp only [truncf_apply, shapeCast_self, Scalar.ofBits, Ideal.ofBits_def]

/-- The output layer's linear part on a block, before the rows are scaled: the value the body squares, sums and divides. -/
def lin3 (v0 v3 : Vec Ideal S10000x64 .f32) (v6 v8 : Vec Ideal S32x64 .f32) (v12 : Vec Ideal S1x32 .f32) : FVec Ideal S10000x32 .f32 :=
  addf
    (addf
      (matmul dot_S10000x64_S64x32_S10000x32_1_0_0_1_n_n none
        (truncf .bf16 (shapeCast S10000x64 v0 shapeCasts_S10000x64_S10000x64) bitsLt_bf16_f32)
        (transpose S64x32 [1, 0] (truncf .bf16 v6 bitsLt_bf16_f32) transposes_S32x64_p1_0_S64x32) (constant S10000x32 .f32 0x00000000#32))
      (broadcastTo S10000x32 (shapeCast S1x32 v12 shapeCasts_S1x32_S1x32) broadcasts_S1x32_S10000x32))
    (matmul dot_S10000x64_S64x32_S10000x32_1_0_0_1_n_n none
      (truncf .bf16 (shapeCast S10000x64 v3 shapeCasts_S10000x64_S10000x64) bitsLt_bf16_f32)
      (transpose S64x32 [1, 0] (truncf .bf16 v8 bitsLt_bf16_f32) transposes_S32x64_p1_0_S64x32) (constant S10000x32 .f32 0x00000000#32))

/-- The linear part at row `p`, feature `j`. -/
theorem lin3_apply (v0 v3 : Vec Ideal S10000x64 .f32) (v6 v8 : Vec Ideal S32x64 .f32) (v12 : Vec Ideal S1x32 .f32)
    (p : Fin 10000) (j : Fin 32) :
    lin3 v0 v3 v6 v8 v12 (ix2 p j)
      = Cert.Sage.combE (fun k : Fin 64 => v0 (ix2 p k)) (fun k : Fin 64 => v3 (ix2 p k)) v6 v8 v12 j := by
  unfold lin3 Cert.Sage.combE Cert.Sage.dotRow
  simp only [addf_apply]
  rw [mmT_64_32, mmT_64_32, bias_32]
  simp only [truncf_apply, shapeCast_self]

/-- The body's stored value is the linear part divided, row by row, by the clamped root of the row's sum of squares. -/
theorem pay3_eq (v0 v3 : Vec Ideal S10000x64 .f32) (v6 v8 : Vec Ideal S32x64 .f32) (v12 : Vec Ideal S1x32 .f32) :
    k3_pay1 v0 v3 v6 v8 v12
      = divf (lin3 v0 v3 v6 v8 v12)
          (broadcastTo S10000x32
            (maximumf
              (sqrt (shapeCast S10000x1
                (multiReduction .add [1] S10000 (mulf (lin3 v0 v3 v6 v8 v12) (lin3 v0 v3 v6 v8 v12)) 0x00000000#32
                  reduces_S10000x32_S10000 (.inl rfl) rfl) shapeCasts_S10000_S10000x1))
              (broadcast S10000x1 (Scalar.ofBits .f32 0x2B8CBCCC#32))) broadcasts_S10000x1_S10000x32) := rfl

/-- The output layer's stored value at row `p`, feature `j`. -/
theorem pay3_apply (v0 v3 : Vec Ideal S10000x64 .f32) (v6 v8 : Vec Ideal S32x64 .f32) (v12 : Vec Ideal S1x32 .f32)
    (p : Fin 10000) (j : Fin 32) :
    k3_pay1 v0 v3 v6 v8 v12 (ix2 p j)
      = Cert.Sage.unitE (fun j' : Fin 32 => Cert.Sage.combE (fun k : Fin 64 => v0 (ix2 p k)) (fun k : Fin 64 => v3 (ix2 p k)) v6 v8 v12 j') j := by
  rw [pay3_eq]
  unfold Cert.Sage.unitE
  rw [divf_apply, col_bcast_apply, maximumf_apply, broadcast_apply]
  show Ideal.div _ (max (Ideal.sqrt (shapeCast S10000x1 _ shapeCasts_S10000_S10000x1 (ix2 p (0 : Fin 1)))) _) = _
  rw [col_cast_apply, row_sum_apply]
  simp only [mulf_apply, lin3_apply, Scalar.ofBits, Ideal.ofBits_def]

end Cert.KernelIdeal.Hand

end
-- ==== Proof.Region0.lean ====
/-
  Region 0 (the input projection): whatever the buffers hold when the region is entered, its output array ends at
  the projection `x · Wᵀ + b` of its three input arrays: each of the ten grid points writes rows 10000·t … 10000·t + 9999.
-/
import proofs.«118156_j50757923504416_2_alg».proof.Proof.Gen.KernelIdeal.Frame
import proofs.«118156_j50757923504416_2_alg».proof.Proof.Spec
import proofs.«118156_j50757923504416_2_alg».proof.Proof.SpecRead
import proofs.«118156_j50757923504416_2_alg».proof.Proof.Payload
import Idealize.ShloMosaic.Lib.Pipeline.Value
import Idealize.ShloMosaic.Lib.ValueIdx
import Idealize.ShloMosaic.Lib.Tactic

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- A block's staging rectangle starts at the buffer's origin. -/
theorem hz0 : (![0, 0] : Fin 2 → Nat) = fun _ => 0 := funext fun a => by fin_cases a <;> rfl

/-- The printed index maps over the grid: a row-block window's block index is (t, 0), a whole-array window's (0, 0). -/
theorem idx0 : ∀ t : Fin cfg0.N,
    win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- The node whose row is row `p` of point `t`'s block. -/
def node0 (t : Fin cfg0.N) (p : Fin 10000) : Fin 100000 :=
  ⟨t.val * 10000 + p.val, by have := t.isLt; have hN : cfg0.N = 10 := N_0; have := p.isLt; omega⟩

/-- Input window 0's block at point `t` is rows 10000·t … 10000·t + 9999 of its array. -/
theorem rd0_0 (c : Dev nD) (t : Fin cfg0.N) (p : Fin 10000) (q : Fin 128) :
    (iblk0 V c 0 t : Vec Ideal S10000x128 .f32) (ix2 p q) = (V c main_arg0 : S100000x128.Idx → Ideal .f32) (ix2 (node0 t p) q) := by
  obtain ⟨e00, e01, e10, e11, e20, e21, e30, e31⟩ := idx0 t
  unfold iblk0
  rw [View.read_apply]
  refine congrArg (V c main_arg0) (funext fun a => Fin.ext ?_)
  match a with
  | ⟨0, _⟩ => show win0_0.index t (0 : Fin 2) * 10000 + 1 * p.val = t.val * 10000 + p.val; rw [e00]; omega
  | ⟨1, _⟩ => show win0_0.index t (1 : Fin 2) * 128 + 1 * q.val = q.val; rw [e01]; omega

/-- Input window 1's block is its whole array at every point. -/
theorem rd0_1 (c : Dev nD) (t : Fin cfg0.N) :
    (iblk0 V c 1 t : Vec Ideal S64x128 .f32) = (V c main_arg2 : S64x128.Idx → Ideal .f32) := by
  obtain ⟨e00, e01, e10, e11, e20, e21, e30, e31⟩ := idx0 t
  funext y
  unfold iblk0
  rw [View.read_apply]
  refine congrArg (V c main_arg2) (funext fun a => Fin.ext ?_)
  match a with
  | ⟨0, _⟩ => show win0_1.index t (0 : Fin 2) * 64 + 1 * (y 0).val = (y 0).val; rw [e10]; omega
  | ⟨1, _⟩ => show win0_1.index t (1 : Fin 2) * 128 + 1 * (y 1).val = (y 1).val; rw [e11]; omega

/-- Input window 2's block is its whole array at every point. -/
theorem rd0_2 (c : Dev nD) (t : Fin cfg0.N) :
    (iblk0 V c 2 t : Vec Ideal S1x64 .f32) = (V c main_v13 : S1x64.Idx → Ideal .f32) := by
  obtain ⟨e00, e01, e10, e11, e20, e21, e30, e31⟩ := idx0 t
  funext y
  unfold iblk0
  rw [View.read_apply]
  refine congrArg (V c main_v13) (funext fun a => Fin.ext ?_)
  match a with
  | ⟨0, _⟩ => show win0_2.index t (0 : Fin 2) * 1 + 1 * (y 0).val = (y 0).val; rw [e20]; omega
  | ⟨1, _⟩ => show win0_2.index t (1 : Fin 2) * 64 + 1 * (y 1).val = (y 1).val; rw [e21]; omega

/-- What point `t` writes back is block `t` of the stage applied to the region's input arrays: row `p` of the block is
    the stage's row at node 10000·t + p, both being the entry formula of that node's rows. -/
theorem flushed0_eq (c : Dev nD) (t : Fin cfg0.N) :
    (dat0 (F := Ideal) V c).flushed 3 t
      = ((cfg0.win 3).blk t).view.read (Elt Ideal) (Cert.Sage.proj (F := Ideal) (V c main_arg0) (V c main_arg2) (V c main_v13)) := by
  show (cfg0.win 3).cut (grid0.coords t) ((dat0 V c).after 3 t) = _
  rw [after0_3]
  unfold out0_3
  rw [View.canon_unit_zero hz0]
  simp only [View.ld_unit_zero (S := S10000x128) hz0, View.ld_unit_zero (S := S64x128) hz0, View.ld_unit_zero (S := S1x64) hz0]
  funext y
  obtain ⟨p, j, rfl⟩ : ∃ (p : Fin 10000) (j : Fin 64), y = ix2 p j := ⟨y 0, y 1, eq_ix2 y⟩
  obtain ⟨e00, e01, e10, e11, e20, e21, e30, e31⟩ := idx0 t
  show k0_pay1 (iblk0 V c 0 t) (iblk0 V c 1 t) (iblk0 V c 2 t) (ix2 p j)
      = Cert.Sage.proj (F := Ideal) (V c main_arg0) (V c main_arg2) (V c main_v13) (((cfg0.win 3).blk t).view.emb (ix2 p j))
  have he : ((cfg0.win 3).blk t).view.emb (ix2 p j) = ix2 (node0 t p) j := funext fun a => Fin.ext (by
    match a with
    | ⟨0, _⟩ => show win0_3.index t (0 : Fin 2) * 10000 + 1 * p.val = t.val * 10000 + p.val; rw [e30]; omega
    | ⟨1, _⟩ => show win0_3.index t (1 : Fin 2) * 64 + 1 * j.val = j.val; rw [e31]; omega)
  rw [he, Cert.Sage.proj_apply]
  refine (pay0_apply (iblk0 V c 0 t) (iblk0 V c 1 t) (iblk0 V c 2 t) p j).trans ?_
  rw [rd0_1 V c t, rd0_2 V c t]
  simp only [rd0_0 V c t p]

/-- Every node's row lies in the block of point ⌊node / 10000⌋. -/
theorem cover0 (i : S100000x64.Idx) :
    ∃ t : Fin cfg0.N, (cfg0.win 3).flush t = true ∧ i ∈ ((cfg0.win 3).blk t).view.set := by
  have hN : cfg0.N = 10 := N_0
  have hi0 : (i 0).val < 100000 := (i 0).isLt
  have hi1 : (i 1).val < 64 := (i 1).isLt
  have ht : (i 0).val / 10000 < cfg0.N := by rw [hN]; omega
  refine ⟨⟨(i 0).val / 10000, ht⟩, flush0_3 _, ?_⟩
  obtain ⟨e00, e01, e10, e11, e20, e21, e30, e31⟩ := idx0 ⟨(i 0).val / 10000, ht⟩
  show i ∈ ((View.whole main_v14).slice (win0_3.rect ⟨(i 0).val / 10000, ht⟩)).set
  rw [View.set_slice_whole, Rect.mem_set_unit]
  intro a
  match a with
  | ⟨0, _⟩ =>
    show win0_3.index ⟨(i 0).val / 10000, ht⟩ (0 : Fin 2) * 10000 ≤ (i 0).val
      ∧ (i 0).val < win0_3.index ⟨(i 0).val / 10000, ht⟩ (0 : Fin 2) * 10000 + 10000
    rw [e30]
    show (i 0).val / 10000 * 10000 ≤ (i 0).val ∧ (i 0).val < (i 0).val / 10000 * 10000 + 10000
    omega
  | ⟨1, _⟩ =>
    show win0_3.index ⟨(i 0).val / 10000, ht⟩ (1 : Fin 2) * 64 ≤ (i 1).val
      ∧ (i 1).val < win0_3.index ⟨(i 0).val / 10000, ht⟩ (1 : Fin 2) * 64 + 64
    rw [e31]
    omega

/-- The projection's array after the last grid point. -/
theorem final0 (c : Dev nD) :
    (dat0 (F := Ideal) V c).arrAt 3 cfg0.N
      = Cert.Sage.proj (F := Ideal) (V c main_arg0) (V c main_arg2) (V c main_v13) :=
  (dat0 (F := Ideal) V c).arrAt_eq_of_cover 3 _ (fun t _ => flushed0_eq V c t) (cover0)

end Cert.KernelIdeal.Hand

end
-- ==== Proof.Region1.lean ====
/-
  Region 1 (the first hidden layer): its output array ends at `max(a · Wlᵀ + b + h · Wrᵀ, 0)` of its five input
  arrays, block of 10000 rows by block.
-/
import proofs.«118156_j50757923504416_2_alg».proof.Proof.Gen.KernelIdeal.Frame
import proofs.«118156_j50757923504416_2_alg».proof.Proof.Spec
import proofs.«118156_j50757923504416_2_alg».proof.Proof.SpecRead
import proofs.«118156_j50757923504416_2_alg».proof.Proof.Payload
import Idealize.ShloMosaic.Lib.Pipeline.Value
import Idealize.ShloMosaic.Lib.ValueIdx
import Idealize.ShloMosaic.Lib.Tactic

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- A block's staging rectangle starts at the buffer's origin. -/
theorem hz1 : (![0, 0] : Fin 2 → Nat) = fun _ => 0 := funext fun a => by fin_cases a <;> rfl

/-- The printed index maps over the grid: a row-block window's block index is (t, 0), a whole-array window's (0, 0). -/
theorem idx1 : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = t.val
    ∧ win1_5.index t (1 : Fin 2) = 0 :=
  (by decide +kernel : ∀ t : Fin grid1.N, _)

/-- The node whose row is row `p` of point `t`'s block. -/
def node1 (t : Fin cfg1.N) (p : Fin 10000) : Fin 100000 :=
  ⟨t.val * 10000 + p.val, by have := t.isLt; have hN : cfg1.N = 10 := N_1; have := p.isLt; omega⟩

/-- Input window 0's block at point `t` is rows 10000·t … 10000·t + 9999 of its array. -/
theorem rd1_0 (c : Dev nD) (t : Fin cfg1.N) (p : Fin 10000) (q : Fin 64) :
    (iblk1 V c 0 t : Vec Ideal S10000x64 .f32) (ix2 p q) = (V c main_v26 : S100000x64.Idx → Ideal .f32) (ix2 (node1 t p) q) := by
  obtain ⟨e00, e01, e10, e11, e20, e21, e30, e31, e40, e41, e50, e51⟩ := idx1 t
  unfold iblk1
  rw [View.read_apply]
  refine congrArg (V c main_v26) (funext fun a => Fin.ext ?_)
  match a with
  | ⟨0, _⟩ => show win1_0.index t (0 : Fin 2) * 10000 + 1 * p.val = t.val * 10000 + p.val; rw [e00]; omega
  | ⟨1, _⟩ => show win1_0.index t (1 : Fin 2) * 64 + 1 * q.val = q.val; rw [e01]; omega

/-- Input window 1's block at point `t` is rows 10000·t … 10000·t + 9999 of its array. -/
theorem rd1_1 (c : Dev nD) (t : Fin cfg1.N) (p : Fin 10000) (q : Fin 64) :
    (iblk1 V c 1 t : Vec Ideal S10000x64 .f32) (ix2 p q) = (V c main_v14 : S100000x64.Idx → Ideal .f32) (ix2 (node1 t p) q) := by
  obtain ⟨e00, e01, e10, e11, e20, e21, e30, e31, e40, e41, e50, e51⟩ := idx1 t
  unfold iblk1
  rw [View.read_apply]
  refine congrArg (V c main_v14) (funext fun a => Fin.ext ?_)
  match a with
  | ⟨0, _⟩ => show win1_1.index t (0 : Fin 2) * 10000 + 1 * p.val = t.val * 10000 + p.val; rw [e10]; omega
  | ⟨1, _⟩ => show win1_1.index t (1 : Fin 2) * 64 + 1 * q.val = q.val; rw [e11]; omega

/-- Input window 2's block is its whole array at every point. -/
theorem rd1_2 (c : Dev nD) (t : Fin cfg1.N) :
    (iblk1 V c 2 t : Vec Ideal S64x64 .f32) = (V c main_arg4 : S64x64.Idx → Ideal .f32) := by
  obtain ⟨e00, e01, e10, e11, e20, e21, e30, e31, e40, e41, e50, e51⟩ := idx1 t
  funext y
  unfold iblk1
  rw [View.read_apply]
  refine congrArg (V c main_arg4) (funext fun a => Fin.ext ?_)
  match a with
  | ⟨0, _⟩ => show win1_2.index t (0 : Fin 2) * 64 + 1 * (y 0).val = (y 0).val; rw [e20]; omega
  | ⟨1, _⟩ => show win1_2.index t (1 : Fin 2) * 64 + 1 * (y 1).val = (y 1).val; rw [e21]; omega

/-- Input window 3's block is its whole array at every point. -/
theorem rd1_3 (c : Dev nD) (t : Fin cfg1.N) :
    (iblk1 V c 3 t : Vec Ideal S1x64 .f32) = (V c main_v27 : S1x64.Idx → Ideal .f32) := by
  obtain ⟨e00, e01, e10, e11, e20, e21, e30, e31, e40, e41, e50, e51⟩ := idx1 t
  funext y
  unfold iblk1
  rw [View.read_apply]
  refine congrArg (V c main_v27) (funext fun a => Fin.ext ?_)
  match a with
  | ⟨0, _⟩ => show win1_3.index t (0 : Fin 2) * 1 + 1 * (y 0).val = (y 0).val; rw [e30]; omega
  | ⟨1, _⟩ => show win1_3.index t (1 : Fin 2) * 64 + 1 * (y 1).val = (y 1).val; rw [e31]; omega

/-- Input window 4's block is its whole array at every point. -/
theorem rd1_4 (c : Dev nD) (t : Fin cfg1.N) :
    (iblk1 V c 4 t : Vec Ideal S64x64 .f32) = (V c main_arg6 : S64x64.Idx → Ideal .f32) := by
  obtain ⟨e00, e01, e10, e11, e20, e21, e30, e31, e40, e41, e50, e51⟩ := idx1 t
  funext y
  unfold iblk1
  rw [View.read_apply]
  refine congrArg (V c main_arg6) (funext fun a => Fin.ext ?_)
  match a with
  | ⟨0, _⟩ => show win1_4.index t (0 : Fin 2) * 64 + 1 * (y 0).val = (y 0).val; rw [e40]; omega
  | ⟨1, _⟩ => show win1_4.index t (1 : Fin 2) * 64 + 1 * (y 1).val = (y 1).val; rw [e41]; omega

/-- What point `t` writes back is block `t` of the stage applied to the region's input arrays: row `p` of the block is
    the stage's row at node 10000·t + p, both being the entry formula of that node's rows. -/
theorem flushed1_eq (c : Dev nD) (t : Fin cfg1.N) :
    (dat1 (F := Ideal) V c).flushed 5 t
      = ((cfg1.win 5).blk t).view.read (Elt Ideal) (Cert.Sage.hidden (F := Ideal) (V c main_v26) (V c main_v14) (V c main_arg4) (V c main_v27) (V c main_arg6)) := by
  show (cfg1.win 5).cut (grid1.coords t) ((dat1 V c).after 5 t) = _
  rw [after1_5]
  unfold out1_5
  rw [View.canon_unit_zero hz1]
  simp only [View.ld_unit_zero (S := S10000x64) hz1, View.ld_unit_zero (S := S64x64) hz1, View.ld_unit_zero (S := S1x64) hz1]
  funext y
  obtain ⟨p, j, rfl⟩ : ∃ (p : Fin 10000) (j : Fin 64), y = ix2 p j := ⟨y 0, y 1, eq_ix2 y⟩
  obtain ⟨e00, e01, e10, e11, e20, e21, e30, e31, e40, e41, e50, e51⟩ := idx1 t
  show k1_pay1 (iblk1 V c 0 t) (iblk1 V c 1 t) (iblk1 V c 2 t) (iblk1 V c 4 t) (iblk1 V c 3 t) (ix2 p j)
      = Cert.Sage.hidden (F := Ideal) (V c main_v26) (V c main_v14) (V c main_arg4) (V c main_v27) (V c main_arg6) (((cfg1.win 5).blk t).view.emb (ix2 p j))
  have he : ((cfg1.win 5).blk t).view.emb (ix2 p j) = ix2 (node1 t p) j := funext fun a => Fin.ext (by
    match a with
    | ⟨0, _⟩ => show win1_5.index t (0 : Fin 2) * 10000 + 1 * p.val = t.val * 10000 + p.val; rw [e50]; omega
    | ⟨1, _⟩ => show win1_5.index t (1 : Fin 2) * 64 + 1 * j.val = j.val; rw [e51]; omega)
  rw [he, Cert.Sage.hidden_apply]
  refine (pay1_apply (iblk1 V c 0 t) (iblk1 V c 1 t) (iblk1 V c 2 t) (iblk1 V c 4 t) (iblk1 V c 3 t) p j).trans ?_
  rw [rd1_2 V c t, rd1_3 V c t, rd1_4 V c t]
  simp only [rd1_0 V c t p, rd1_1 V c t p]

/-- Every node's row lies in the block of point ⌊node / 10000⌋. -/
theorem cover1 (i : S100000x64.Idx) :
    ∃ t : Fin cfg1.N, (cfg1.win 5).flush t = true ∧ i ∈ ((cfg1.win 5).blk t).view.set := by
  have hN : cfg1.N = 10 := N_1
  have hi0 : (i 0).val < 100000 := (i 0).isLt
  have hi1 : (i 1).val < 64 := (i 1).isLt
  have ht : (i 0).val / 10000 < cfg1.N := by rw [hN]; omega
  refine ⟨⟨(i 0).val / 10000, ht⟩, flush1_5 _, ?_⟩
  obtain ⟨e00, e01, e10, e11, e20, e21, e30, e31, e40, e41, e50, e51⟩ := idx1 ⟨(i 0).val / 10000, ht⟩
  show i ∈ ((View.whole main_v28).slice (win1_5.rect ⟨(i 0).val / 10000, ht⟩)).set
  rw [View.set_slice_whole, Rect.mem_set_unit]
  intro a
  match a with
  | ⟨0, _⟩ =>
    show win1_5.index ⟨(i 0).val / 10000, ht⟩ (0 : Fin 2) * 10000 ≤ (i 0).val
      ∧ (i 0).val < win1_5.index ⟨(i 0).val / 10000, ht⟩ (0 : Fin 2) * 10000 + 10000
    rw [e50]
    show (i 0).val / 10000 * 10000 ≤ (i 0).val ∧ (i 0).val < (i 0).val / 10000 * 10000 + 10000
    omega
  | ⟨1, _⟩ =>
    show win1_5.index ⟨(i 0).val / 10000, ht⟩ (1 : Fin 2) * 64 ≤ (i 1).val
      ∧ (i 1).val < win1_5.index ⟨(i 0).val / 10000, ht⟩ (1 : Fin 2) * 64 + 64
    rw [e51]
    omega

/-- The first hidden layer's array after the last grid point. -/
theorem final1 (c : Dev nD) :
    (dat1 (F := Ideal) V c).arrAt 5 cfg1.N
      = Cert.Sage.hidden (F := Ideal) (V c main_v26) (V c main_v14) (V c main_arg4) (V c main_v27) (V c main_arg6) :=
  (dat1 (F := Ideal) V c).arrAt_eq_of_cover 5 _ (fun t _ => flushed1_eq V c t) (cover1)

end Cert.KernelIdeal.Hand

end
-- ==== Proof.Region2.lean ====
/-
  Region 2 (the second hidden layer): its output array ends at `max(a · Wlᵀ + b + h · Wrᵀ, 0)` of its five input
  arrays, block of 10000 rows by block.
-/
import proofs.«118156_j50757923504416_2_alg».proof.Proof.Gen.KernelIdeal.Frame
import proofs.«118156_j50757923504416_2_alg».proof.Proof.Spec
import proofs.«118156_j50757923504416_2_alg».proof.Proof.SpecRead
import proofs.«118156_j50757923504416_2_alg».proof.Proof.Payload
import Idealize.ShloMosaic.Lib.Pipeline.Value
import Idealize.ShloMosaic.Lib.ValueIdx
import Idealize.ShloMosaic.Lib.Tactic

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- A block's staging rectangle starts at the buffer's origin. -/
theorem hz2 : (![0, 0] : Fin 2 → Nat) = fun _ => 0 := funext fun a => by fin_cases a <;> rfl

/-- The printed index maps over the grid: a row-block window's block index is (t, 0), a whole-array window's (0, 0). -/
theorem idx2 : ∀ t : Fin cfg2.N,
    win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = t.val
    ∧ win2_5.index t (1 : Fin 2) = 0 :=
  (by decide +kernel : ∀ t : Fin grid2.N, _)

/-- The node whose row is row `p` of point `t`'s block. -/
def node2 (t : Fin cfg2.N) (p : Fin 10000) : Fin 100000 :=
  ⟨t.val * 10000 + p.val, by have := t.isLt; have hN : cfg2.N = 10 := N_2; have := p.isLt; omega⟩

/-- Input window 0's block at point `t` is rows 10000·t … 10000·t + 9999 of its array. -/
theorem rd2_0 (c : Dev nD) (t : Fin cfg2.N) (p : Fin 10000) (q : Fin 64) :
    (iblk2 V c 0 t : Vec Ideal S10000x64 .f32) (ix2 p q) = (V c main_v40 : S100000x64.Idx → Ideal .f32) (ix2 (node2 t p) q) := by
  obtain ⟨e00, e01, e10, e11, e20, e21, e30, e31, e40, e41, e50, e51⟩ := idx2 t
  unfold iblk2
  rw [View.read_apply]
  refine congrArg (V c main_v40) (funext fun a => Fin.ext ?_)
  match a with
  | ⟨0, _⟩ => show win2_0.index t (0 : Fin 2) * 10000 + 1 * p.val = t.val * 10000 + p.val; rw [e00]; omega
  | ⟨1, _⟩ => show win2_0.index t (1 : Fin 2) * 64 + 1 * q.val = q.val; rw [e01]; omega

/-- Input window 1's block at point `t` is rows 10000·t … 10000·t + 9999 of its array. -/
theorem rd2_1 (c : Dev nD) (t : Fin cfg2.N) (p : Fin 10000) (q : Fin 64) :
    (iblk2 V c 1 t : Vec Ideal S10000x64 .f32) (ix2 p q) = (V c main_v28 : S100000x64.Idx → Ideal .f32) (ix2 (node2 t p) q) := by
  obtain ⟨e00, e01, e10, e11, e20, e21, e30, e31, e40, e41, e50, e51⟩ := idx2 t
  unfold iblk2
  rw [View.read_apply]
  refine congrArg (V c main_v28) (funext fun a => Fin.ext ?_)
  match a with
  | ⟨0, _⟩ => show win2_1.index t (0 : Fin 2) * 10000 + 1 * p.val = t.val * 10000 + p.val; rw [e10]; omega
  | ⟨1, _⟩ => show win2_1.index t (1 : Fin 2) * 64 + 1 * q.val = q.val; rw [e11]; omega

/-- Input window 2's block is its whole array at every point. -/
theorem rd2_2 (c : Dev nD) (t : Fin cfg2.N) :
    (iblk2 V c 2 t : Vec Ideal S64x64 .f32) = (V c main_arg7 : S64x64.Idx → Ideal .f32) := by
  obtain ⟨e00, e01, e10, e11, e20, e21, e30, e31, e40, e41, e50, e51⟩ := idx2 t
  funext y
  unfold iblk2
  rw [View.read_apply]
  refine congrArg (V c main_arg7) (funext fun a => Fin.ext ?_)
  match a with
  | ⟨0, _⟩ => show win2_2.index t (0 : Fin 2) * 64 + 1 * (y 0).val = (y 0).val; rw [e20]; omega
  | ⟨1, _⟩ => show win2_2.index t (1 : Fin 2) * 64 + 1 * (y 1).val = (y 1).val; rw [e21]; omega

/-- Input window 3's block is its whole array at every point. -/
theorem rd2_3 (c : Dev nD) (t : Fin cfg2.N) :
    (iblk2 V c 3 t : Vec Ideal S1x64 .f32) = (V c main_v41 : S1x64.Idx → Ideal .f32) := by
  obtain ⟨e00, e01, e10, e11, e20, e21, e30, e31, e40, e41, e50, e51⟩ := idx2 t
  funext y
  unfold iblk2
  rw [View.read_apply]
  refine congrArg (V c main_v41) (funext fun a => Fin.ext ?_)
  match a with
  | ⟨0, _⟩ => show win2_3.index t (0 : Fin 2) * 1 + 1 * (y 0).val = (y 0).val; rw [e30]; omega
  | ⟨1, _⟩ => show win2_3.index t (1 : Fin 2) * 64 + 1 * (y 1).val = (y 1).val; rw [e31]; omega

/-- Input window 4's block is its whole array at every point. -/
theorem rd2_4 (c : Dev nD) (t : Fin cfg2.N) :
    (iblk2 V c 4 t : Vec Ideal S64x64 .f32) = (V c main_arg9 : S64x64.Idx → Ideal .f32) := by
  obtain ⟨e00, e01, e10, e11, e20, e21, e30, e31, e40, e41, e50, e51⟩ := idx2 t
  funext y
  unfold iblk2
  rw [View.read_apply]
  refine congrArg (V c main_arg9) (funext fun a => Fin.ext ?_)
  match a with
  | ⟨0, _⟩ => show win2_4.index t (0 : Fin 2) * 64 + 1 * (y 0).val = (y 0).val; rw [e40]; omega
  | ⟨1, _⟩ => show win2_4.index t (1 : Fin 2) * 64 + 1 * (y 1).val = (y 1).val; rw [e41]; omega

/-- What point `t` writes back is block `t` of the stage applied to the region's input arrays: row `p` of the block is
    the stage's row at node 10000·t + p, both being the entry formula of that node's rows. -/
theorem flushed2_eq (c : Dev nD) (t : Fin cfg2.N) :
    (dat2 (F := Ideal) V c).flushed 5 t
      = ((cfg2.win 5).blk t).view.read (Elt Ideal) (Cert.Sage.hidden (F := Ideal) (V c main_v40) (V c main_v28) (V c main_arg7) (V c main_v41) (V c main_arg9)) := by
  show (cfg2.win 5).cut (grid2.coords t) ((dat2 V c).after 5 t) = _
  rw [after2_5]
  unfold out2_5
  rw [View.canon_unit_zero hz2]
  simp only [View.ld_unit_zero (S := S10000x64) hz2, View.ld_unit_zero (S := S64x64) hz2, View.ld_unit_zero (S := S1x64) hz2]
  funext y
  obtain ⟨p, j, rfl⟩ : ∃ (p : Fin 10000) (j : Fin 64), y = ix2 p j := ⟨y 0, y 1, eq_ix2 y⟩
  obtain ⟨e00, e01, e10, e11, e20, e21, e30, e31, e40, e41, e50, e51⟩ := idx2 t
  show k2_pay1 (iblk2 V c 0 t) (iblk2 V c 1 t) (iblk2 V c 2 t) (iblk2 V c 4 t) (iblk2 V c 3 t) (ix2 p j)
      = Cert.Sage.hidden (F := Ideal) (V c main_v40) (V c main_v28) (V c main_arg7) (V c main_v41) (V c main_arg9) (((cfg2.win 5).blk t).view.emb (ix2 p j))
  have he : ((cfg2.win 5).blk t).view.emb (ix2 p j) = ix2 (node2 t p) j := funext fun a => Fin.ext (by
    match a with
    | ⟨0, _⟩ => show win2_5.index t (0 : Fin 2) * 10000 + 1 * p.val = t.val * 10000 + p.val; rw [e50]; omega
    | ⟨1, _⟩ => show win2_5.index t (1 : Fin 2) * 64 + 1 * j.val = j.val; rw [e51]; omega)
  rw [he, Cert.Sage.hidden_apply]
  refine (pay2_apply (iblk2 V c 0 t) (iblk2 V c 1 t) (iblk2 V c 2 t) (iblk2 V c 4 t) (iblk2 V c 3 t) p j).trans ?_
  rw [rd2_2 V c t, rd2_3 V c t, rd2_4 V c t]
  simp only [rd2_0 V c t p, rd2_1 V c t p]

/-- Every node's row lies in the block of point ⌊node / 10000⌋. -/
theorem cover2 (i : S100000x64.Idx) :
    ∃ t : Fin cfg2.N, (cfg2.win 5).flush t = true ∧ i ∈ ((cfg2.win 5).blk t).view.set := by
  have hN : cfg2.N = 10 := N_2
  have hi0 : (i 0).val < 100000 := (i 0).isLt
  have hi1 : (i 1).val < 64 := (i 1).isLt
  have ht : (i 0).val / 10000 < cfg2.N := by rw [hN]; omega
  refine ⟨⟨(i 0).val / 10000, ht⟩, flush2_5 _, ?_⟩
  obtain ⟨e00, e01, e10, e11, e20, e21, e30, e31, e40, e41, e50, e51⟩ := idx2 ⟨(i 0).val / 10000, ht⟩
  show i ∈ ((View.whole main_v42).slice (win2_5.rect ⟨(i 0).val / 10000, ht⟩)).set
  rw [View.set_slice_whole, Rect.mem_set_unit]
  intro a
  match a with
  | ⟨0, _⟩ =>
    show win2_5.index ⟨(i 0).val / 10000, ht⟩ (0 : Fin 2) * 10000 ≤ (i 0).val
      ∧ (i 0).val < win2_5.index ⟨(i 0).val / 10000, ht⟩ (0 : Fin 2) * 10000 + 10000
    rw [e50]
    show (i 0).val / 10000 * 10000 ≤ (i 0).val ∧ (i 0).val < (i 0).val / 10000 * 10000 + 10000
    omega
  | ⟨1, _⟩ =>
    show win2_5.index ⟨(i 0).val / 10000, ht⟩ (1 : Fin 2) * 64 ≤ (i 1).val
      ∧ (i 1).val < win2_5.index ⟨(i 0).val / 10000, ht⟩ (1 : Fin 2) * 64 + 64
    rw [e51]
    omega

/-- The second hidden layer's array after the last grid point. -/
theorem final2 (c : Dev nD) :
    (dat2 (F := Ideal) V c).arrAt 5 cfg2.N
      = Cert.Sage.hidden (F := Ideal) (V c main_v40) (V c main_v28) (V c main_arg7) (V c main_v41) (V c main_arg9) :=
  (dat2 (F := Ideal) V c).arrAt_eq_of_cover 5 _ (fun t _ => flushed2_eq V c t) (cover2)

end Cert.KernelIdeal.Hand

end
-- ==== Proof.Region3.lean ====
/-
  Region 3 (the output layer): its output array ends at the rows of `a · Wlᵀ + b + h · Wrᵀ` each divided by
  max(its Euclidean norm, ε), block of 10000 rows by block.
-/
import proofs.«118156_j50757923504416_2_alg».proof.Proof.Gen.KernelIdeal.Frame
import proofs.«118156_j50757923504416_2_alg».proof.Proof.Spec
import proofs.«118156_j50757923504416_2_alg».proof.Proof.SpecRead
import proofs.«118156_j50757923504416_2_alg».proof.Proof.Payload
import Idealize.ShloMosaic.Lib.Pipeline.Value
import Idealize.ShloMosaic.Lib.ValueIdx
import Idealize.ShloMosaic.Lib.Tactic

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- A block's staging rectangle starts at the buffer's origin. -/
theorem hz3 : (![0, 0] : Fin 2 → Nat) = fun _ => 0 := funext fun a => by fin_cases a <;> rfl

/-- The printed index maps over the grid: a row-block window's block index is (t, 0), a whole-array window's (0, 0). -/
theorem idx3 : ∀ t : Fin cfg3.N,
    win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = t.val
    ∧ win3_5.index t (1 : Fin 2) = 0 :=
  (by decide +kernel : ∀ t : Fin grid3.N, _)

/-- The node whose row is row `p` of point `t`'s block. -/
def node3 (t : Fin cfg3.N) (p : Fin 10000) : Fin 100000 :=
  ⟨t.val * 10000 + p.val, by have := t.isLt; have hN : cfg3.N = 10 := N_3; have := p.isLt; omega⟩

/-- Input window 0's block at point `t` is rows 10000·t … 10000·t + 9999 of its array. -/
theorem rd3_0 (c : Dev nD) (t : Fin cfg3.N) (p : Fin 10000) (q : Fin 64) :
    (iblk3 V c 0 t : Vec Ideal S10000x64 .f32) (ix2 p q) = (V c main_v54 : S100000x64.Idx → Ideal .f32) (ix2 (node3 t p) q) := by
  obtain ⟨e00, e01, e10, e11, e20, e21, e30, e31, e40, e41, e50, e51⟩ := idx3 t
  unfold iblk3
  rw [View.read_apply]
  refine congrArg (V c main_v54) (funext fun a => Fin.ext ?_)
  match a with
  | ⟨0, _⟩ => show win3_0.index t (0 : Fin 2) * 10000 + 1 * p.val = t.val * 10000 + p.val; rw [e00]; omega
  | ⟨1, _⟩ => show win3_0.index t (1 : Fin 2) * 64 + 1 * q.val = q.val; rw [e01]; omega

/-- Input window 1's block at point `t` is rows 10000·t … 10000·t + 9999 of its array. -/
theorem rd3_1 (c : Dev nD) (t : Fin cfg3.N) (p : Fin 10000) (q : Fin 64) :
    (iblk3 V c 1 t : Vec Ideal S10000x64 .f32) (ix2 p q) = (V c main_v42 : S100000x64.Idx → Ideal .f32) (ix2 (node3 t p) q) := by
  obtain ⟨e00, e01, e10, e11, e20, e21, e30, e31, e40, e41, e50, e51⟩ := idx3 t
  unfold iblk3
  rw [View.read_apply]
  refine congrArg (V c main_v42) (funext fun a => Fin.ext ?_)
  match a with
  | ⟨0, _⟩ => show win3_1.index t (0 : Fin 2) * 10000 + 1 * p.val = t.val * 10000 + p.val; rw [e10]; omega
  | ⟨1, _⟩ => show win3_1.index t (1 : Fin 2) * 64 + 1 * q.val = q.val; rw [e11]; omega

/-- Input window 2's block is its whole array at every point. -/
theorem rd3_2 (c : Dev nD) (t : Fin cfg3.N) :
    (iblk3 V c 2 t : Vec Ideal S32x64 .f32) = (V c main_arg10 : S32x64.Idx → Ideal .f32) := by
  obtain ⟨e00, e01, e10, e11, e20, e21, e30, e31, e40, e41, e50, e51⟩ := idx3 t
  funext y
  unfold iblk3
  rw [View.read_apply]
  refine congrArg (V c main_arg10) (funext fun a => Fin.ext ?_)
  match a with
  | ⟨0, _⟩ => show win3_2.index t (0 : Fin 2) * 32 + 1 * (y 0).val = (y 0).val; rw [e20]; omega
  | ⟨1, _⟩ => show win3_2.index t (1 : Fin 2) * 64 + 1 * (y 1).val = (y 1).val; rw [e21]; omega

/-- Input window 3's block is its whole array at every point. -/
theorem rd3_3 (c : Dev nD) (t : Fin cfg3.N) :
    (iblk3 V c 3 t : Vec Ideal S1x32 .f32) = (V c main_v55 : S1x32.Idx → Ideal .f32) := by
  obtain ⟨e00, e01, e10, e11, e20, e21, e30, e31, e40, e41, e50, e51⟩ := idx3 t
  funext y
  unfold iblk3
  rw [View.read_apply]
  refine congrArg (V c main_v55) (funext fun a => Fin.ext ?_)
  match a with
  | ⟨0, _⟩ => show win3_3.index t (0 : Fin 2) * 1 + 1 * (y 0).val = (y 0).val; rw [e30]; omega
  | ⟨1, _⟩ => show win3_3.index t (1 : Fin 2) * 32 + 1 * (y 1).val = (y 1).val; rw [e31]; omega

/-- Input window 4's block is its whole array at every point. -/
theorem rd3_4 (c : Dev nD) (t : Fin cfg3.N) :
    (iblk3 V c 4 t : Vec Ideal S32x64 .f32) = (V c main_arg12 : S32x64.Idx → Ideal .f32) := by
  obtain ⟨e00, e01, e10, e11, e20, e21, e30, e31, e40, e41, e50, e51⟩ := idx3 t
  funext y
  unfold iblk3
  rw [View.read_apply]
  refine congrArg (V c main_arg12) (funext fun a => Fin.ext ?_)
  match a with
  | ⟨0, _⟩ => show win3_4.index t (0 : Fin 2) * 32 + 1 * (y 0).val = (y 0).val; rw [e40]; omega
  | ⟨1, _⟩ => show win3_4.index t (1 : Fin 2) * 64 + 1 * (y 1).val = (y 1).val; rw [e41]; omega

/-- What point `t` writes back is block `t` of the stage applied to the region's input arrays: row `p` of the block is
    the stage's row at node 10000·t + p, both being the entry formula of that node's rows. -/
theorem flushed3_eq (c : Dev nD) (t : Fin cfg3.N) :
    (dat3 (F := Ideal) V c).flushed 5 t
      = ((cfg3.win 5).blk t).view.read (Elt Ideal) (Cert.Sage.outLayer (F := Ideal) (V c main_v54) (V c main_v42) (V c main_arg10) (V c main_v55) (V c main_arg12)) := by
  show (cfg3.win 5).cut (grid3.coords t) ((dat3 V c).after 5 t) = _
  rw [after3_5]
  unfold out3_5
  rw [View.canon_unit_zero hz3]
  simp only [View.ld_unit_zero (S := S10000x64) hz3, View.ld_unit_zero (S := S32x64) hz3, View.ld_unit_zero (S := S1x32) hz3]
  funext y
  obtain ⟨p, j, rfl⟩ : ∃ (p : Fin 10000) (j : Fin 32), y = ix2 p j := ⟨y 0, y 1, eq_ix2 y⟩
  obtain ⟨e00, e01, e10, e11, e20, e21, e30, e31, e40, e41, e50, e51⟩ := idx3 t
  show k3_pay1 (iblk3 V c 0 t) (iblk3 V c 1 t) (iblk3 V c 2 t) (iblk3 V c 4 t) (iblk3 V c 3 t) (ix2 p j)
      = Cert.Sage.outLayer (F := Ideal) (V c main_v54) (V c main_v42) (V c main_arg10) (V c main_v55) (V c main_arg12) (((cfg3.win 5).blk t).view.emb (ix2 p j))
  have he : ((cfg3.win 5).blk t).view.emb (ix2 p j) = ix2 (node3 t p) j := funext fun a => Fin.ext (by
    match a with
    | ⟨0, _⟩ => show win3_5.index t (0 : Fin 2) * 10000 + 1 * p.val = t.val * 10000 + p.val; rw [e50]; omega
    | ⟨1, _⟩ => show win3_5.index t (1 : Fin 2) * 32 + 1 * j.val = j.val; rw [e51]; omega)
  rw [he, Cert.Sage.outLayer_apply]
  refine (pay3_apply (iblk3 V c 0 t) (iblk3 V c 1 t) (iblk3 V c 2 t) (iblk3 V c 4 t) (iblk3 V c 3 t) p j).trans ?_
  rw [rd3_2 V c t, rd3_3 V c t, rd3_4 V c t]
  simp only [rd3_0 V c t p, rd3_1 V c t p]

/-- Every node's row lies in the block of point ⌊node / 10000⌋. -/
theorem cover3 (i : S100000x32.Idx) :
    ∃ t : Fin cfg3.N, (cfg3.win 5).flush t = true ∧ i ∈ ((cfg3.win 5).blk t).view.set := by
  have hN : cfg3.N = 10 := N_3
  have hi0 : (i 0).val < 100000 := (i 0).isLt
  have hi1 : (i 1).val < 32 := (i 1).isLt
  have ht : (i 0).val / 10000 < cfg3.N := by rw [hN]; omega
  refine ⟨⟨(i 0).val / 10000, ht⟩, flush3_5 _, ?_⟩
  obtain ⟨e00, e01, e10, e11, e20, e21, e30, e31, e40, e41, e50, e51⟩ := idx3 ⟨(i 0).val / 10000, ht⟩
  show i ∈ ((View.whole main_v56).slice (win3_5.rect ⟨(i 0).val / 10000, ht⟩)).set
  rw [View.set_slice_whole, Rect.mem_set_unit]
  intro a
  match a with
  | ⟨0, _⟩ =>
    show win3_5.index ⟨(i 0).val / 10000, ht⟩ (0 : Fin 2) * 10000 ≤ (i 0).val
      ∧ (i 0).val < win3_5.index ⟨(i 0).val / 10000, ht⟩ (0 : Fin 2) * 10000 + 10000
    rw [e50]
    show (i 0).val / 10000 * 10000 ≤ (i 0).val ∧ (i 0).val < (i 0).val / 10000 * 10000 + 10000
    omega
  | ⟨1, _⟩ =>
    show win3_5.index ⟨(i 0).val / 10000, ht⟩ (1 : Fin 2) * 32 ≤ (i 1).val
      ∧ (i 1).val < win3_5.index ⟨(i 0).val / 10000, ht⟩ (1 : Fin 2) * 32 + 32
    rw [e51]
    omega

/-- The output layer's array after the last grid point. -/
theorem final3 (c : Dev nD) :
    (dat3 (F := Ideal) V c).arrAt 5 cfg3.N
      = Cert.Sage.outLayer (F := Ideal) (V c main_v54) (V c main_v42) (V c main_arg10) (V c main_v55) (V c main_arg12) :=
  (dat3 (F := Ideal) V c).arrAt_eq_of_cover 5 _ (fun t _ => flushed3_eq V c t) (cover3)

end Cert.KernelIdeal.Hand

end
-- ==== Proof.Chain.lean ====
/-
  The result buffer, walked back to the launch memory. The program's buffer contents at each segment boundary are a
  fold: a host stretch applied to the previous boundary's contents, or a region's arrays replaced by what its
  write-backs leave. For every buffer a later segment reads, the boundary's contents at that buffer are a closed term of
  the thirteen argument arrays: the edge list's parts and the inverse degrees from the first stretch, each region's
  output the stage function of its inputs (Region0 … Region3), each stretch's aggregate the mean aggregate of the
  previous layer. Composed, the result buffer holds `Cert.Sage.net` of the arguments, the biases entering as the rows
  the kernel program's reshapes make of them.
-/
import proofs.«118156_j50757923504416_2_alg».proof.Proof.Gen.KernelIdeal.Frame
import proofs.«118156_j50757923504416_2_alg».proof.Proof.Spec
import proofs.«118156_j50757923504416_2_alg».proof.Proof.HostStretches
import proofs.«118156_j50757923504416_2_alg».proof.Proof.Region0
import proofs.«118156_j50757923504416_2_alg».proof.Proof.Region1
import proofs.«118156_j50757923504416_2_alg».proof.Proof.Region2
import proofs.«118156_j50757923504416_2_alg».proof.Proof.Region3

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.Sage (TF TI)

variable (m : (ℓ : Loc nD τ sig) → Buf (Elt Ideal) ℓ) (ρ : Dev nD → PrngReg)

/-! ## The closed terms -/

/-- A [64] bias as the [1, 64] row the kernel program's reshape makes of it. -/
abbrev kb64 (b : TF Ideal S64) : TF Ideal S1x64 := shapeCast S1x64 b shapeCasts_S64_S1x64
/-- A [32] bias as the [1, 32] row the kernel program's reshape makes of it. -/
abbrev kb32 (b : TF Ideal S32) : TF Ideal S1x32 := shapeCast S1x32 b shapeCasts_S32_S1x32
/-- The edges' source nodes, from the edge-list argument. -/
abbrev srcOf (c : Dev nD) : TI Ideal S1600000 := Cert.Sage.srcRaw (F := Ideal) (m ((c.tc : Thread nD τ).loc main_arg1))
/-- The edges' destination nodes. -/
abbrev dstOf (c : Dev nD) : TI Ideal S1600000 := Cert.Sage.dstRaw (F := Ideal) (m ((c.tc : Thread nD τ).loc main_arg1))
/-- The nodes' inverse degrees. -/
abbrev invOf (c : Dev nD) : TF Ideal S100000x1 := Cert.Sage.invDeg (F := Ideal) (m ((c.tc : Thread nD τ).loc main_arg1))
/-- The mean aggregate of a feature array over the argument's edges. -/
abbrev agg (h : TF Ideal S100000x64) (c : Dev nD) : TF Ideal S100000x64 :=
  Cert.Sage.meanAggP (F := Ideal) h (srcOf m c) (dstOf m c) (invOf m c)
/-- The projected features. -/
abbrev feat0 (c : Dev nD) : TF Ideal S100000x64 := Cert.Sage.proj (F := Ideal) (m ((c.tc : Thread nD τ).loc main_arg0)) (m ((c.tc : Thread nD τ).loc main_arg2)) (kb64 (m ((c.tc : Thread nD τ).loc main_arg3)))
/-- The features after the first hidden layer. -/
abbrev feat1 (c : Dev nD) : TF Ideal S100000x64 :=
  Cert.Sage.hidden (F := Ideal) (agg m (feat0 m c) c) (feat0 m c) (m ((c.tc : Thread nD τ).loc main_arg4)) (kb64 (m ((c.tc : Thread nD τ).loc main_arg5))) (m ((c.tc : Thread nD τ).loc main_arg6))
/-- The features after the second hidden layer. -/
abbrev feat2 (c : Dev nD) : TF Ideal S100000x64 :=
  Cert.Sage.hidden (F := Ideal) (agg m (feat1 m c) c) (feat1 m c) (m ((c.tc : Thread nD τ).loc main_arg7)) (kb64 (m ((c.tc : Thread nD τ).loc main_arg8))) (m ((c.tc : Thread nD τ).loc main_arg9))
/-- The output features. -/
abbrev featOut (c : Dev nD) : TF Ideal S100000x32 :=
  Cert.Sage.outLayer (F := Ideal) (agg m (feat2 m c) c) (feat2 m c) (m ((c.tc : Thread nD τ).loc main_arg10)) (kb32 (m ((c.tc : Thread nD τ).loc main_arg11))) (m ((c.tc : Thread nD τ).loc main_arg12))

/-! ## After the first host stretch -/

/-- After the first stretch, `main_v1`. -/
theorem W1_v1 (c : Dev nD) : W1 m ρ c (Proc.devRef .tc main_v1) = (srcOf m c) :=
  h0_v1 (W0 m ρ c)
/-- After the first stretch, `main_v3`. -/
theorem W1_v3 (c : Dev nD) : W1 m ρ c (Proc.devRef .tc main_v3) = (dstOf m c) :=
  h0_v3 (W0 m ρ c)
/-- After the first stretch, `main_v12`. -/
theorem W1_v12 (c : Dev nD) : W1 m ρ c (Proc.devRef .tc main_v12) = (invOf m c) :=
  h0_v12 (W0 m ρ c)
/-- After the first stretch, `main_v13`. -/
theorem W1_v13 (c : Dev nD) : W1 m ρ c (Proc.devRef .tc main_v13) = (kb64 (m ((c.tc : Thread nD τ).loc main_arg3))) :=
  h0_v13 (W0 m ρ c)
/-- The first stretch leaves `main_arg0` as launched. -/
theorem W1_arg0 (c : Dev nD) : W1 m ρ c (Proc.devRef .tc main_arg0) = (m ((c.tc : Thread nD τ).loc main_arg0)) :=
  keep0_arg0 (W0 m ρ c)
/-- The first stretch leaves `main_arg2` as launched. -/
theorem W1_arg2 (c : Dev nD) : W1 m ρ c (Proc.devRef .tc main_arg2) = (m ((c.tc : Thread nD τ).loc main_arg2)) :=
  keep0_arg2 (W0 m ρ c)
/-- The first stretch leaves `main_arg4` as launched. -/
theorem W1_arg4 (c : Dev nD) : W1 m ρ c (Proc.devRef .tc main_arg4) = (m ((c.tc : Thread nD τ).loc main_arg4)) :=
  keep0_arg4 (W0 m ρ c)
/-- The first stretch leaves `main_arg5` as launched. -/
theorem W1_arg5 (c : Dev nD) : W1 m ρ c (Proc.devRef .tc main_arg5) = (m ((c.tc : Thread nD τ).loc main_arg5)) :=
  keep0_arg5 (W0 m ρ c)
/-- The first stretch leaves `main_arg6` as launched. -/
theorem W1_arg6 (c : Dev nD) : W1 m ρ c (Proc.devRef .tc main_arg6) = (m ((c.tc : Thread nD τ).loc main_arg6)) :=
  keep0_arg6 (W0 m ρ c)
/-- The first stretch leaves `main_arg7` as launched. -/
theorem W1_arg7 (c : Dev nD) : W1 m ρ c (Proc.devRef .tc main_arg7) = (m ((c.tc : Thread nD τ).loc main_arg7)) :=
  keep0_arg7 (W0 m ρ c)
/-- The first stretch leaves `main_arg8` as launched. -/
theorem W1_arg8 (c : Dev nD) : W1 m ρ c (Proc.devRef .tc main_arg8) = (m ((c.tc : Thread nD τ).loc main_arg8)) :=
  keep0_arg8 (W0 m ρ c)
/-- The first stretch leaves `main_arg9` as launched. -/
theorem W1_arg9 (c : Dev nD) : W1 m ρ c (Proc.devRef .tc main_arg9) = (m ((c.tc : Thread nD τ).loc main_arg9)) :=
  keep0_arg9 (W0 m ρ c)
/-- The first stretch leaves `main_arg10` as launched. -/
theorem W1_arg10 (c : Dev nD) : W1 m ρ c (Proc.devRef .tc main_arg10) = (m ((c.tc : Thread nD τ).loc main_arg10)) :=
  keep0_arg10 (W0 m ρ c)
/-- The first stretch leaves `main_arg11` as launched. -/
theorem W1_arg11 (c : Dev nD) : W1 m ρ c (Proc.devRef .tc main_arg11) = (m ((c.tc : Thread nD τ).loc main_arg11)) :=
  keep0_arg11 (W0 m ρ c)
/-- The first stretch leaves `main_arg12` as launched. -/
theorem W1_arg12 (c : Dev nD) : W1 m ρ c (Proc.devRef .tc main_arg12) = (m ((c.tc : Thread nD τ).loc main_arg12)) :=
  keep0_arg12 (W0 m ρ c)

/-! ## After region 0 -/

/-- Region 0 does not touch `main_v1`. -/
theorem W2_v1 (c : Dev nD) : W2 m ρ c (Proc.devRef .tc main_v1) = (srcOf m c) :=
  (W2_of_ne m ρ c main_v1 (by decide)).trans (W1_v1 m ρ c)
/-- Region 0 does not touch `main_v3`. -/
theorem W2_v3 (c : Dev nD) : W2 m ρ c (Proc.devRef .tc main_v3) = (dstOf m c) :=
  (W2_of_ne m ρ c main_v3 (by decide)).trans (W1_v3 m ρ c)
/-- Region 0 does not touch `main_v12`. -/
theorem W2_v12 (c : Dev nD) : W2 m ρ c (Proc.devRef .tc main_v12) = (invOf m c) :=
  (W2_of_ne m ρ c main_v12 (by decide)).trans (W1_v12 m ρ c)
/-- Region 0 does not touch `main_arg4`. -/
theorem W2_arg4 (c : Dev nD) : W2 m ρ c (Proc.devRef .tc main_arg4) = (m ((c.tc : Thread nD τ).loc main_arg4)) :=
  (W2_of_ne m ρ c main_arg4 (by decide)).trans (W1_arg4 m ρ c)
/-- Region 0 does not touch `main_arg5`. -/
theorem W2_arg5 (c : Dev nD) : W2 m ρ c (Proc.devRef .tc main_arg5) = (m ((c.tc : Thread nD τ).loc main_arg5)) :=
  (W2_of_ne m ρ c main_arg5 (by decide)).trans (W1_arg5 m ρ c)
/-- Region 0 does not touch `main_arg6`. -/
theorem W2_arg6 (c : Dev nD) : W2 m ρ c (Proc.devRef .tc main_arg6) = (m ((c.tc : Thread nD τ).loc main_arg6)) :=
  (W2_of_ne m ρ c main_arg6 (by decide)).trans (W1_arg6 m ρ c)
/-- Region 0 does not touch `main_arg7`. -/
theorem W2_arg7 (c : Dev nD) : W2 m ρ c (Proc.devRef .tc main_arg7) = (m ((c.tc : Thread nD τ).loc main_arg7)) :=
  (W2_of_ne m ρ c main_arg7 (by decide)).trans (W1_arg7 m ρ c)
/-- Region 0 does not touch `main_arg8`. -/
theorem W2_arg8 (c : Dev nD) : W2 m ρ c (Proc.devRef .tc main_arg8) = (m ((c.tc : Thread nD τ).loc main_arg8)) :=
  (W2_of_ne m ρ c main_arg8 (by decide)).trans (W1_arg8 m ρ c)
/-- Region 0 does not touch `main_arg9`. -/
theorem W2_arg9 (c : Dev nD) : W2 m ρ c (Proc.devRef .tc main_arg9) = (m ((c.tc : Thread nD τ).loc main_arg9)) :=
  (W2_of_ne m ρ c main_arg9 (by decide)).trans (W1_arg9 m ρ c)
/-- Region 0 does not touch `main_arg10`. -/
theorem W2_arg10 (c : Dev nD) : W2 m ρ c (Proc.devRef .tc main_arg10) = (m ((c.tc : Thread nD τ).loc main_arg10)) :=
  (W2_of_ne m ρ c main_arg10 (by decide)).trans (W1_arg10 m ρ c)
/-- Region 0 does not touch `main_arg11`. -/
theorem W2_arg11 (c : Dev nD) : W2 m ρ c (Proc.devRef .tc main_arg11) = (m ((c.tc : Thread nD τ).loc main_arg11)) :=
  (W2_of_ne m ρ c main_arg11 (by decide)).trans (W1_arg11 m ρ c)
/-- Region 0 does not touch `main_arg12`. -/
theorem W2_arg12 (c : Dev nD) : W2 m ρ c (Proc.devRef .tc main_arg12) = (m ((c.tc : Thread nD τ).loc main_arg12)) :=
  (W2_of_ne m ρ c main_arg12 (by decide)).trans (W1_arg12 m ρ c)
/-- Region 0 leaves the projected features in its output array. -/
theorem W2_v14 (c : Dev nD) : W2 m ρ c (Proc.devRef .tc main_v14) = (feat0 m c) :=
  (W2_arr m ρ c 3).trans ((final0 (V1 m ρ) c).trans (by
    dsimp only [V1]
    first | (rw [W1_arg0 m ρ c, W1_arg2 m ρ c, W1_v13 m ρ c]; done) | (rw [W1_arg0 m ρ c, W1_arg2 m ρ c, W1_v13 m ρ c]; rfl)))

/-! ## After the second host stretch -/

/-- The second stretch leaves `main_v14` as it was. -/
theorem W3_v14 (c : Dev nD) : W3 m ρ c (Proc.devRef .tc main_v14) = (feat0 m c) :=
  (keep1_v14 (W2 m ρ c)).trans (W2_v14 m ρ c)
/-- The second stretch leaves `main_arg4` as it was. -/
theorem W3_arg4 (c : Dev nD) : W3 m ρ c (Proc.devRef .tc main_arg4) = (m ((c.tc : Thread nD τ).loc main_arg4)) :=
  (keep1_arg4 (W2 m ρ c)).trans (W2_arg4 m ρ c)
/-- The second stretch leaves `main_arg6` as it was. -/
theorem W3_arg6 (c : Dev nD) : W3 m ρ c (Proc.devRef .tc main_arg6) = (m ((c.tc : Thread nD τ).loc main_arg6)) :=
  (keep1_arg6 (W2 m ρ c)).trans (W2_arg6 m ρ c)
/-- The second stretch leaves `main_v1` as it was. -/
theorem W3_v1 (c : Dev nD) : W3 m ρ c (Proc.devRef .tc main_v1) = (srcOf m c) :=
  (keep1_v1 (W2 m ρ c)).trans (W2_v1 m ρ c)
/-- The second stretch leaves `main_v3` as it was. -/
theorem W3_v3 (c : Dev nD) : W3 m ρ c (Proc.devRef .tc main_v3) = (dstOf m c) :=
  (keep1_v3 (W2 m ρ c)).trans (W2_v3 m ρ c)
/-- The second stretch leaves `main_v12` as it was. -/
theorem W3_v12 (c : Dev nD) : W3 m ρ c (Proc.devRef .tc main_v12) = (invOf m c) :=
  (keep1_v12 (W2 m ρ c)).trans (W2_v12 m ρ c)
/-- The second stretch leaves `main_arg7` as it was. -/
theorem W3_arg7 (c : Dev nD) : W3 m ρ c (Proc.devRef .tc main_arg7) = (m ((c.tc : Thread nD τ).loc main_arg7)) :=
  (keep1_arg7 (W2 m ρ c)).trans (W2_arg7 m ρ c)
/-- The second stretch leaves `main_arg8` as it was. -/
theorem W3_arg8 (c : Dev nD) : W3 m ρ c (Proc.devRef .tc main_arg8) = (m ((c.tc : Thread nD τ).loc main_arg8)) :=
  (keep1_arg8 (W2 m ρ c)).trans (W2_arg8 m ρ c)
/-- The second stretch leaves `main_arg9` as it was. -/
theorem W3_arg9 (c : Dev nD) : W3 m ρ c (Proc.devRef .tc main_arg9) = (m ((c.tc : Thread nD τ).loc main_arg9)) :=
  (keep1_arg9 (W2 m ρ c)).trans (W2_arg9 m ρ c)
/-- The second stretch leaves `main_arg10` as it was. -/
theorem W3_arg10 (c : Dev nD) : W3 m ρ c (Proc.devRef .tc main_arg10) = (m ((c.tc : Thread nD τ).loc main_arg10)) :=
  (keep1_arg10 (W2 m ρ c)).trans (W2_arg10 m ρ c)
/-- The second stretch leaves `main_arg11` as it was. -/
theorem W3_arg11 (c : Dev nD) : W3 m ρ c (Proc.devRef .tc main_arg11) = (m ((c.tc : Thread nD τ).loc main_arg11)) :=
  (keep1_arg11 (W2 m ρ c)).trans (W2_arg11 m ρ c)
/-- The second stretch leaves `main_arg12` as it was. -/
theorem W3_arg12 (c : Dev nD) : W3 m ρ c (Proc.devRef .tc main_arg12) = (m ((c.tc : Thread nD τ).loc main_arg12)) :=
  (keep1_arg12 (W2 m ρ c)).trans (W2_arg12 m ρ c)
/-- The second stretch computes the mean aggregate of the projected features. -/
theorem W3_v26 (c : Dev nD) : W3 m ρ c (Proc.devRef .tc main_v26) = (agg m (feat0 m c) c) :=
  (h1_v26 (W2 m ρ c)).trans (by
    first | (rw [W2_v14 m ρ c, W2_v1 m ρ c, W2_v3 m ρ c, W2_v12 m ρ c]; done) | (rw [W2_v14 m ρ c, W2_v1 m ρ c, W2_v3 m ρ c, W2_v12 m ρ c]; rfl))
/-- … and the first layer's bias row. -/
theorem W3_v27 (c : Dev nD) : W3 m ρ c (Proc.devRef .tc main_v27) = (kb64 (m ((c.tc : Thread nD τ).loc main_arg5))) :=
  (h1_v27 (W2 m ρ c)).trans (by
    first | (rw [W2_arg5 m ρ c]; done) | (rw [W2_arg5 m ρ c]; rfl))

/-! ## After region 1 -/

/-- Region 1 does not touch `main_v1`. -/
theorem W4_v1 (c : Dev nD) : W4 m ρ c (Proc.devRef .tc main_v1) = (srcOf m c) :=
  (W4_of_ne m ρ c main_v1 (by decide)).trans (W3_v1 m ρ c)
/-- Region 1 does not touch `main_v3`. -/
theorem W4_v3 (c : Dev nD) : W4 m ρ c (Proc.devRef .tc main_v3) = (dstOf m c) :=
  (W4_of_ne m ρ c main_v3 (by decide)).trans (W3_v3 m ρ c)
/-- Region 1 does not touch `main_v12`. -/
theorem W4_v12 (c : Dev nD) : W4 m ρ c (Proc.devRef .tc main_v12) = (invOf m c) :=
  (W4_of_ne m ρ c main_v12 (by decide)).trans (W3_v12 m ρ c)
/-- Region 1 does not touch `main_arg7`. -/
theorem W4_arg7 (c : Dev nD) : W4 m ρ c (Proc.devRef .tc main_arg7) = (m ((c.tc : Thread nD τ).loc main_arg7)) :=
  (W4_of_ne m ρ c main_arg7 (by decide)).trans (W3_arg7 m ρ c)
/-- Region 1 does not touch `main_arg8`. -/
theorem W4_arg8 (c : Dev nD) : W4 m ρ c (Proc.devRef .tc main_arg8) = (m ((c.tc : Thread nD τ).loc main_arg8)) :=
  (W4_of_ne m ρ c main_arg8 (by decide)).trans (W3_arg8 m ρ c)
/-- Region 1 does not touch `main_arg9`. -/
theorem W4_arg9 (c : Dev nD) : W4 m ρ c (Proc.devRef .tc main_arg9) = (m ((c.tc : Thread nD τ).loc main_arg9)) :=
  (W4_of_ne m ρ c main_arg9 (by decide)).trans (W3_arg9 m ρ c)
/-- Region 1 does not touch `main_arg10`. -/
theorem W4_arg10 (c : Dev nD) : W4 m ρ c (Proc.devRef .tc main_arg10) = (m ((c.tc : Thread nD τ).loc main_arg10)) :=
  (W4_of_ne m ρ c main_arg10 (by decide)).trans (W3_arg10 m ρ c)
/-- Region 1 does not touch `main_arg11`. -/
theorem W4_arg11 (c : Dev nD) : W4 m ρ c (Proc.devRef .tc main_arg11) = (m ((c.tc : Thread nD τ).loc main_arg11)) :=
  (W4_of_ne m ρ c main_arg11 (by decide)).trans (W3_arg11 m ρ c)
/-- Region 1 does not touch `main_arg12`. -/
theorem W4_arg12 (c : Dev nD) : W4 m ρ c (Proc.devRef .tc main_arg12) = (m ((c.tc : Thread nD τ).loc main_arg12)) :=
  (W4_of_ne m ρ c main_arg12 (by decide)).trans (W3_arg12 m ρ c)
/-- Region 1 leaves the first hidden layer's features in its output array. -/
theorem W4_v28 (c : Dev nD) : W4 m ρ c (Proc.devRef .tc main_v28) = (feat1 m c) :=
  (W4_arr m ρ c 5).trans ((final1 (V3 m ρ) c).trans (by
    dsimp only [V3]
    first | (rw [W3_v26 m ρ c, W3_v14 m ρ c, W3_arg4 m ρ c, W3_v27 m ρ c, W3_arg6 m ρ c]; done) | (rw [W3_v26 m ρ c, W3_v14 m ρ c, W3_arg4 m ρ c, W3_v27 m ρ c, W3_arg6 m ρ c]; rfl)))

/-! ## After the third host stretch -/

/-- The third stretch leaves `main_v28` as it was. -/
theorem W5_v28 (c : Dev nD) : W5 m ρ c (Proc.devRef .tc main_v28) = (feat1 m c) :=
  (keep2_v28 (W4 m ρ c)).trans (W4_v28 m ρ c)
/-- The third stretch leaves `main_arg7` as it was. -/
theorem W5_arg7 (c : Dev nD) : W5 m ρ c (Proc.devRef .tc main_arg7) = (m ((c.tc : Thread nD τ).loc main_arg7)) :=
  (keep2_arg7 (W4 m ρ c)).trans (W4_arg7 m ρ c)
/-- The third stretch leaves `main_arg9` as it was. -/
theorem W5_arg9 (c : Dev nD) : W5 m ρ c (Proc.devRef .tc main_arg9) = (m ((c.tc : Thread nD τ).loc main_arg9)) :=
  (keep2_arg9 (W4 m ρ c)).trans (W4_arg9 m ρ c)
/-- The third stretch leaves `main_v1` as it was. -/
theorem W5_v1 (c : Dev nD) : W5 m ρ c (Proc.devRef .tc main_v1) = (srcOf m c) :=
  (keep2_v1 (W4 m ρ c)).trans (W4_v1 m ρ c)
/-- The third stretch leaves `main_v3` as it was. -/
theorem W5_v3 (c : Dev nD) : W5 m ρ c (Proc.devRef .tc main_v3) = (dstOf m c) :=
  (keep2_v3 (W4 m ρ c)).trans (W4_v3 m ρ c)
/-- The third stretch leaves `main_v12` as it was. -/
theorem W5_v12 (c : Dev nD) : W5 m ρ c (Proc.devRef .tc main_v12) = (invOf m c) :=
  (keep2_v12 (W4 m ρ c)).trans (W4_v12 m ρ c)
/-- The third stretch leaves `main_arg10` as it was. -/
theorem W5_arg10 (c : Dev nD) : W5 m ρ c (Proc.devRef .tc main_arg10) = (m ((c.tc : Thread nD τ).loc main_arg10)) :=
  (keep2_arg10 (W4 m ρ c)).trans (W4_arg10 m ρ c)
/-- The third stretch leaves `main_arg11` as it was. -/
theorem W5_arg11 (c : Dev nD) : W5 m ρ c (Proc.devRef .tc main_arg11) = (m ((c.tc : Thread nD τ).loc main_arg11)) :=
  (keep2_arg11 (W4 m ρ c)).trans (W4_arg11 m ρ c)
/-- The third stretch leaves `main_arg12` as it was. -/
theorem W5_arg12 (c : Dev nD) : W5 m ρ c (Proc.devRef .tc main_arg12) = (m ((c.tc : Thread nD τ).loc main_arg12)) :=
  (keep2_arg12 (W4 m ρ c)).trans (W4_arg12 m ρ c)
/-- The third stretch computes the mean aggregate of the first hidden layer's features. -/
theorem W5_v40 (c : Dev nD) : W5 m ρ c (Proc.devRef .tc main_v40) = (agg m (feat1 m c) c) :=
  (h2_v40 (W4 m ρ c)).trans (by
    first | (rw [W4_v28 m ρ c, W4_v1 m ρ c, W4_v3 m ρ c, W4_v12 m ρ c]; done) | (rw [W4_v28 m ρ c, W4_v1 m ρ c, W4_v3 m ρ c, W4_v12 m ρ c]; rfl))
/-- … and the second layer's bias row. -/
theorem W5_v41 (c : Dev nD) : W5 m ρ c (Proc.devRef .tc main_v41) = (kb64 (m ((c.tc : Thread nD τ).loc main_arg8))) :=
  (h2_v41 (W4 m ρ c)).trans (by
    first | (rw [W4_arg8 m ρ c]; done) | (rw [W4_arg8 m ρ c]; rfl))

/-! ## After region 2 -/

/-- Region 2 does not touch `main_v1`. -/
theorem W6_v1 (c : Dev nD) : W6 m ρ c (Proc.devRef .tc main_v1) = (srcOf m c) :=
  (W6_of_ne m ρ c main_v1 (by decide)).trans (W5_v1 m ρ c)
/-- Region 2 does not touch `main_v3`. -/
theorem W6_v3 (c : Dev nD) : W6 m ρ c (Proc.devRef .tc main_v3) = (dstOf m c) :=
  (W6_of_ne m ρ c main_v3 (by decide)).trans (W5_v3 m ρ c)
/-- Region 2 does not touch `main_v12`. -/
theorem W6_v12 (c : Dev nD) : W6 m ρ c (Proc.devRef .tc main_v12) = (invOf m c) :=
  (W6_of_ne m ρ c main_v12 (by decide)).trans (W5_v12 m ρ c)
/-- Region 2 does not touch `main_arg10`. -/
theorem W6_arg10 (c : Dev nD) : W6 m ρ c (Proc.devRef .tc main_arg10) = (m ((c.tc : Thread nD τ).loc main_arg10)) :=
  (W6_of_ne m ρ c main_arg10 (by decide)).trans (W5_arg10 m ρ c)
/-- Region 2 does not touch `main_arg11`. -/
theorem W6_arg11 (c : Dev nD) : W6 m ρ c (Proc.devRef .tc main_arg11) = (m ((c.tc : Thread nD τ).loc main_arg11)) :=
  (W6_of_ne m ρ c main_arg11 (by decide)).trans (W5_arg11 m ρ c)
/-- Region 2 does not touch `main_arg12`. -/
theorem W6_arg12 (c : Dev nD) : W6 m ρ c (Proc.devRef .tc main_arg12) = (m ((c.tc : Thread nD τ).loc main_arg12)) :=
  (W6_of_ne m ρ c main_arg12 (by decide)).trans (W5_arg12 m ρ c)
/-- Region 2 leaves the second hidden layer's features in its output array. -/
theorem W6_v42 (c : Dev nD) : W6 m ρ c (Proc.devRef .tc main_v42) = (feat2 m c) :=
  (W6_arr m ρ c 5).trans ((final2 (V5 m ρ) c).trans (by
    dsimp only [V5]
    first | (rw [W5_v40 m ρ c, W5_v28 m ρ c, W5_arg7 m ρ c, W5_v41 m ρ c, W5_arg9 m ρ c]; done) | (rw [W5_v40 m ρ c, W5_v28 m ρ c, W5_arg7 m ρ c, W5_v41 m ρ c, W5_arg9 m ρ c]; rfl)))

/-! ## After the fourth host stretch -/

/-- The fourth stretch leaves `main_v42` as it was. -/
theorem W7_v42 (c : Dev nD) : W7 m ρ c (Proc.devRef .tc main_v42) = (feat2 m c) :=
  (keep3_v42 (W6 m ρ c)).trans (W6_v42 m ρ c)
/-- The fourth stretch leaves `main_arg10` as it was. -/
theorem W7_arg10 (c : Dev nD) : W7 m ρ c (Proc.devRef .tc main_arg10) = (m ((c.tc : Thread nD τ).loc main_arg10)) :=
  (keep3_arg10 (W6 m ρ c)).trans (W6_arg10 m ρ c)
/-- The fourth stretch leaves `main_arg12` as it was. -/
theorem W7_arg12 (c : Dev nD) : W7 m ρ c (Proc.devRef .tc main_arg12) = (m ((c.tc : Thread nD τ).loc main_arg12)) :=
  (keep3_arg12 (W6 m ρ c)).trans (W6_arg12 m ρ c)
/-- The fourth stretch computes the mean aggregate of the second hidden layer's features. -/
theorem W7_v54 (c : Dev nD) : W7 m ρ c (Proc.devRef .tc main_v54) = (agg m (feat2 m c) c) :=
  (h3_v54 (W6 m ρ c)).trans (by
    first | (rw [W6_v42 m ρ c, W6_v1 m ρ c, W6_v3 m ρ c, W6_v12 m ρ c]; done) | (rw [W6_v42 m ρ c, W6_v1 m ρ c, W6_v3 m ρ c, W6_v12 m ρ c]; rfl))
/-- … and the output layer's bias row. -/
theorem W7_v55 (c : Dev nD) : W7 m ρ c (Proc.devRef .tc main_v55) = (kb32 (m ((c.tc : Thread nD τ).loc main_arg11))) :=
  (h3_v55 (W6 m ρ c)).trans (by
    first | (rw [W6_arg11 m ρ c]; done) | (rw [W6_arg11 m ρ c]; rfl))

/-! ## After region 3: the result -/

/-- Region 3 leaves the output features in the result buffer. -/
theorem W8_v56 (c : Dev nD) : W8 m ρ c (Proc.devRef .tc main_v56) = (featOut m c) :=
  (W8_arr m ρ c 5).trans ((final3 (V7 m ρ) c).trans (by
    dsimp only [V7]
    first | (rw [W7_v54 m ρ c, W7_v42 m ρ c, W7_arg10 m ρ c, W7_v55 m ρ c, W7_arg12 m ρ c]; done) | (rw [W7_v54 m ρ c, W7_v42 m ρ c, W7_arg10 m ρ c, W7_v55 m ρ c, W7_arg12 m ρ c]; rfl)))

/-- The result buffer holds the network of the thirteen arguments, the biases as the kernel program's rows. -/
theorem result_eq_net (c : Dev nD) :
    W8 m ρ c (Proc.devRef .tc main_v56)
      = Cert.Sage.net (F := Ideal) (m ((c.tc : Thread nD τ).loc main_arg0)) (m ((c.tc : Thread nD τ).loc main_arg1)) (m ((c.tc : Thread nD τ).loc main_arg2)) (kb64 (m ((c.tc : Thread nD τ).loc main_arg3)))
          (m ((c.tc : Thread nD τ).loc main_arg4)) (kb64 (m ((c.tc : Thread nD τ).loc main_arg5))) (m ((c.tc : Thread nD τ).loc main_arg6)) (m ((c.tc : Thread nD τ).loc main_arg7)) (kb64 (m ((c.tc : Thread nD τ).loc main_arg8))) (m ((c.tc : Thread nD τ).loc main_arg9))
          (m ((c.tc : Thread nD τ).loc main_arg10)) (kb32 (m ((c.tc : Thread nD τ).loc main_arg11))) (m ((c.tc : Thread nD τ).loc main_arg12)) :=
  (W8_v56 m ρ c).trans rfl

end Cert.KernelIdeal.Hand

end
-- ==== Proof.RefIsSpec.lean ====
/-
  The reference computes `Cert.Sage.net`: its composed result term is the network function of the argument arrays,
  each bias entering as the row `broadcast_in_dim` makes of it. Nothing is computed here: the stages of
  `Cert.Sage` are the reference's own operations, so the two terms agree by unfolding the stage definitions.
-/
import proofs.«118156_j50757923504416_2_alg».proof.Proof.Gen.ReferenceIdeal.Run
import proofs.«118156_j50757923504416_2_alg».proof.Proof.Spec

noncomputable section

namespace Cert.Sage

open Cert.ReferenceIdeal Cert.ReferenceIdeal.Gen Idealize.ShloMosaic Idealize.ShloMosaic.TcCoe Idealize.SL.Sem

variable {F : FTy → Type} [FloatOps F]

set_option maxRecDepth 16384 in
/-- The reference's result array is the network of its thirteen arguments. -/
theorem ref_eq_net (m : (ℓ : Loc nD τ sig) → Buf (Elt F) ℓ) (c : Dev nD) :
    Cert.ReferenceIdeal.Value.res_main_v84 m c
      = net (F := F) (m ((c.tc : Thread nD τ).loc main_arg0)) (m ((c.tc : Thread nD τ).loc main_arg1))
          (m ((c.tc : Thread nD τ).loc main_arg2)) (biasRow64 (m ((c.tc : Thread nD τ).loc main_arg3)))
          (m ((c.tc : Thread nD τ).loc main_arg4)) (biasRow64 (m ((c.tc : Thread nD τ).loc main_arg5))) (m ((c.tc : Thread nD τ).loc main_arg6))
          (m ((c.tc : Thread nD τ).loc main_arg7)) (biasRow64 (m ((c.tc : Thread nD τ).loc main_arg8))) (m ((c.tc : Thread nD τ).loc main_arg9))
          (m ((c.tc : Thread nD τ).loc main_arg10)) (biasRow32 (m ((c.tc : Thread nD τ).loc main_arg11))) (m ((c.tc : Thread nD τ).loc main_arg12)) := by
  unfold Cert.ReferenceIdeal.Value.res_main_v84 net outLayer hidden unitRows comb32 comb64 relu64 proj meanAgg meanAggP invDeg dstIdx
    gatherIdx scatterIdx srcRaw dstRaw biasRow64 biasRow32
  rfl

end Cert.Sage

end
-- ==== Proof.lean ====
/-
  A three-layer mean-aggregation graph network on 100000 nodes and 1600000 edges: the kernel program (four row-blocked
  regions among host stretches) and the reference (host operations only) compute the same function of their thirteen
  arguments over the extended reals.

  The function is `Cert.Sage.net` (Spec.lean): project the node features (x · W_preᵀ + b); three times, take the mean
  of each node's in-neighbours' features (gather at the edges' sources, scatter-sum at their destinations, scale by
  1 / max(in-degree, 1)) and combine it with the node's own features (a · Wlᵀ + b + h · Wrᵀ); apply max(·, 0) after the
  first two layers and divide each row by max(its Euclidean norm, ε) after the third.

  * The reference's composed result term IS that function of its arguments, by unfolding (RefIsSpec.lean).
  * The kernel program's result buffer holds that function of its arguments (Chain.lean): each region's output array
    is one dense stage of its input arrays (Region0 … Region3: row `p` of grid point `t`'s block is the stage's row
    at node 10000·t + p, because a matmul into a zero accumulator and the host's dot_general are the same sum over the
    contracted axis, the roundings to bf16 are the identity, and a lane reduction is the host's row sum — Payload.lean,
    SpecRead.lean, Rows.lean), and the host stretches between the regions are the reference's own gather / scatter-sum
    operations (HostStretches.lean).
  * The two programs build a bias's [1, d] row differently — a reshape against a broadcast — and both rows read the
    bias at the column (`bias_row64`, `bias_row32` below).
  No law of arithmetic beyond these readings is used: both sides add and multiply the same extended reals in the same
  order, so the precondition (finite inputs) is not needed for the value.
-/
import proofs.«118156_j50757923504416_2_alg».proof.Defs
import proofs.«118156_j50757923504416_2_alg».proof.Proof.Gen.Kernel
import proofs.«118156_j50757923504416_2_alg».proof.Proof.Gen.Kernel.Frame
import proofs.«118156_j50757923504416_2_alg».proof.Proof.Gen.KernelIdeal
import proofs.«118156_j50757923504416_2_alg».proof.Proof.Gen.KernelIdeal.Frame
import proofs.«118156_j50757923504416_2_alg».proof.Proof.Gen.ReferenceIdeal
import proofs.«118156_j50757923504416_2_alg».proof.Proof.Gen.ReferenceIdeal.Run
import proofs.«118156_j50757923504416_2_alg».proof.Proof.Gen.Pre_finite_inputs
import proofs.«118156_j50757923504416_2_alg».proof.Proof.KernelRun
import proofs.«118156_j50757923504416_2_alg».proof.Proof.Chain
import proofs.«118156_j50757923504416_2_alg».proof.Proof.RefIsSpec
import Idealize.ShloMosaic.Lib.ValueLayout
import Idealize.ShloMosaic.Adequacy
import Idealize.ShloMosaic.Init

noncomputable section

namespace Cert.Proof

open Idealize.ShloMosaic Idealize.ShloMosaic.TcCoe Idealize.SL.Sem Idealize.ShloMosaic.ValueIdx

/-! ## A bias as a row, two ways -/

/-- The [64] bias reshaped to [1, 64] is the bias broadcast to [1, 64]: both read it at the column. -/
theorem bias_row64 (b : Cert.Sage.TF Ideal Cert.KernelIdeal.S64) :
    Cert.KernelIdeal.Hand.kb64 b = Cert.Sage.biasRow64 (F := Ideal) b := by
  funext i
  obtain ⟨u, j, rfl⟩ : ∃ (u : Fin 1) (j : Fin 64), i = ix2 u j := ⟨i 0, i 1, eq_ix2 i⟩
  unfold Cert.Sage.biasRow64
  refine (shapeCast_a_1a_apply b _ u j).trans ?_
  exact (broadcastInDim_apply _ _ b (ix2 u j) (ix1 j) (fun a => match a with
    | ⟨0, _⟩ => by show j.val = if (64 : Nat) = 1 then 0 else j.val; rw [if_neg (by decide)])).symm

/-- The [32] bias reshaped to [1, 32] is the bias broadcast to [1, 32]. -/
theorem bias_row32 (b : Cert.Sage.TF Ideal Cert.KernelIdeal.S32) :
    Cert.KernelIdeal.Hand.kb32 b = Cert.Sage.biasRow32 (F := Ideal) b := by
  funext i
  obtain ⟨u, j, rfl⟩ : ∃ (u : Fin 1) (j : Fin 32), i = ix2 u j := ⟨i 0, i 1, eq_ix2 i⟩
  unfold Cert.Sage.biasRow32
  refine (shapeCast_a_1a_apply b _ u j).trans ?_
  exact (broadcastInDim_apply _ _ b (ix2 u j) (ix1 j) (fun a => match a with
    | ⟨0, _⟩ => by show j.val = if (32 : Nat) = 1 then 0 else j.val; rw [if_neg (by decide)])).symm

/-! ## The claims -/

/-- The word-level kernel program runs and leaves its arguments as launched. -/
theorem frame_k : Cert.frame_Kernel := fun m ρ _ => Cert.Kernel.Gen.frame m ρ

/-- So does the kernel program read at the ideal values. -/
theorem frame_ki : Cert.frame_KernelIdeal := fun m ρ _ => Cert.KernelIdeal.Gen.frame m ρ

/-- The reference runs and leaves its arguments as launched: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments, both programs end with the network of the arguments in their result. -/
theorem algebraic : Cert.algebraic_KernelIdeal_ReferenceIdeal := by
  intro m ρ m' ρ' _ hagree
  refine ⟨fun c => Cert.KernelIdeal.Gen.W8 m ρ c (Proc.devRef .tc Cert.KernelIdeal.main_v56),
    Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12⟩ := hagree c
  rw [Cert.Sage.ref_eq_net, a0, a1, a2, a3, a4, a5, a6, a7, a8, a9, a10, a11, a12]
  refine Eq.trans ?_ (Cert.KernelIdeal.Hand.result_eq_net m ρ c).symm
  rw [bias_row64, bias_row64, bias_row64, bias_row32]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
